-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1500x2 : Shape := ⟨3, ![8, 1500, 2]⟩
abbrev S4800x2 : Shape := ⟨2, ![4800, 2]⟩
abbrev S_ : Shape := ⟨0, ![]⟩

class Facts : Prop where
  bcast_S_S8x1500x2 : S_.BroadcastsInDim S8x1500x2 (![] : Fin 0 → Fin S8x1500x2.rank)
  reducesTo_S8x1500x2_S_d0_1_2 : S8x1500x2.ReducesTo [0, 1, 2] S_
  h_S_ : 0 < S_.numel
  bcast_S_S4800x2 : S_.BroadcastsInDim S4800x2 (![] : Fin 0 → Fin S4800x2.rank)
  reducesTo_S4800x2_S_d0_1 : S4800x2.ReducesTo [0, 1] S_

variable [Facts]

def fn_part1 {F : FTy → Type} [FloatOps F] (main_v13 : IVec S_ 1) (main_v16 : IVec S4800x2 1) : IVec S_ 1 :=
  let main_c_5 : IVec S_ 1 := constantI S_ 1 1#1
  let main_v17 : IVec S_ 1 := (fun x v => Host.reduce IntOp.andi x v reducesTo_S4800x2_S_d0_1 h_S_) main_v16 main_c_5
  let main_v18 : IVec S_ 1 := andi main_v13 main_v17
  main_v18

def fn {F : FTy → Type} [FloatOps F] (main_arg0 : FVec F S8x1500x2 .f32) (main_arg1 : FVec F S8x1500x2 .f32) (main_arg2 : FVec F S4800x2 .f32) (main_arg3 : FVec F S4800x2 .f32) : IVec S_ 1 :=
  let main_v0 : FVec F S8x1500x2 .f32 := Host.absf main_arg0
  let main_cst : FVec F S_ .f32 := constant S_ .f32 0x7F800000#32
  let main_v1 : FVec F S8x1500x2 .f32 := broadcastInDim S8x1500x2 ![] bcast_S_S8x1500x2 main_cst
  let main_v2 : IVec S8x1500x2 1 := cmpf .olt main_v0 main_v1
  let main_c : IVec S_ 1 := constantI S_ 1 1#1
  let main_v3 : IVec S_ 1 := (fun x v => Host.reduce IntOp.andi x v reducesTo_S8x1500x2_S_d0_1_2 h_S_) main_v2 main_c
  let main_v4 : FVec F S8x1500x2 .f32 := Host.absf main_arg1
  let main_cst_0 : FVec F S_ .f32 := constant S_ .f32 0x7F800000#32
  let main_v5 : FVec F S8x1500x2 .f32 := broadcastInDim S8x1500x2 ![] bcast_S_S8x1500x2 main_cst_0
  let main_v6 : IVec S8x1500x2 1 := cmpf .olt main_v4 main_v5
  let main_c_1 : IVec S_ 1 := constantI S_ 1 1#1
  let main_v7 : IVec S_ 1 := (fun x v => Host.reduce IntOp.andi x v reducesTo_S8x1500x2_S_d0_1_2 h_S_) main_v6 main_c_1
  let main_v8 : IVec S_ 1 := andi main_v3 main_v7
  let main_v9 : FVec F S4800x2 .f32 := Host.absf main_arg2
  let main_cst_2 : FVec F S_ .f32 := constant S_ .f32 0x7F800000#32
  let main_v10 : FVec F S4800x2 .f32 := broadcastInDim S4800x2 ![] bcast_S_S4800x2 main_cst_2
  let main_v11 : IVec S4800x2 1 := cmpf .olt main_v9 main_v10
  let main_c_3 : IVec S_ 1 := constantI S_ 1 1#1
  let main_v12 : IVec S_ 1 := (fun x v => Host.reduce IntOp.andi x v reducesTo_S4800x2_S_d0_1 h_S_) main_v11 main_c_3
  let main_v13 : IVec S_ 1 := andi main_v8 main_v12
  let main_v14 : FVec F S4800x2 .f32 := Host.absf main_arg3
  let main_cst_4 : FVec F S_ .f32 := constant S_ .f32 0x7F800000#32
  let main_v15 : FVec F S4800x2 .f32 := broadcastInDim S4800x2 ![] bcast_S_S4800x2 main_cst_4
  let main_v16 : IVec S4800x2 1 := cmpf .olt main_v14 main_v15
  fn_part1 (F := F) main_v13 main_v16
-- ==== Kernel.lean ====
abbrev S8x1500x2 : Shape := ⟨3, ![8, 1500, 2]⟩
abbrev S4800x2 : Shape := ⟨2, ![4800, 2]⟩
abbrev S12000x2 : Shape := ⟨2, ![12000, 2]⟩
abbrev S2x4800 : Shape := ⟨2, ![2, 4800]⟩
abbrev S12000x4800 : Shape := ⟨2, ![12000, 4800]⟩
abbrev S400x2 : Shape := ⟨2, ![400, 2]⟩
abbrev S400x4800 : Shape := ⟨2, ![400, 4800]⟩
abbrev S400x1 : Shape := ⟨2, ![400, 1]⟩
abbrev S1x4800 : Shape := ⟨2, ![1, 4800]⟩
abbrev S8x1500x4800 : Shape := ⟨3, ![8, 1500, 4800]⟩

abbrev nBuf : Space → Nat
  | .hbm => 10
  | .vmem => 8
  | .smem => 0
  | _ => 0

abbrev bufTy : (tb : Table) → Fin (tcTables nBuf tb) → BufTy
  | .hbm, ⟨0, _⟩ => ⟨S8x1500x2, .f32⟩
  | .hbm, ⟨1, _⟩ => ⟨S8x1500x2, .f32⟩
  | .hbm, ⟨2, _⟩ => ⟨S4800x2, .f32⟩
  | .hbm, ⟨3, _⟩ => ⟨S4800x2, .f32⟩
  | .hbm, ⟨4, _⟩ => ⟨S12000x2, .f32⟩
  | .hbm, ⟨5, _⟩ => ⟨S12000x2, .f32⟩
  | .hbm, ⟨6, _⟩ => ⟨S2x4800, .f32⟩
  | .hbm, ⟨7, _⟩ => ⟨S2x4800, .f32⟩
  | .hbm, ⟨8, _⟩ => ⟨S12000x4800, .f32⟩
  | .hbm, ⟨9, _⟩ => ⟨S8x1500x4800, .f32⟩
  | .local _ .vmem, ⟨0, _⟩ => ⟨S400x2, .f32⟩
  | .local _ .vmem, ⟨1, _⟩ => ⟨S400x2, .f32⟩
  | .local _ .vmem, ⟨2, _⟩ => ⟨S400x2, .f32⟩
  | .local _ .vmem, ⟨3, _⟩ => ⟨S400x2, .f32⟩
  | .local _ .vmem, ⟨4, _⟩ => ⟨S2x4800, .f32⟩
  | .local _ .vmem, ⟨5, _⟩ => ⟨S2x4800, .f32⟩
  | .local _ .vmem, ⟨6, _⟩ => ⟨S400x4800, .f32⟩
  | .local _ .vmem, ⟨7, _⟩ => ⟨S400x4800, .f32⟩
  | _, _ => ⟨S8x1500x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x4800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x4800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x4800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x1500x2_S12000x2 : S8x1500x2.ShapeCasts S12000x2
  transposes_S4800x2_S2x4800_1_0 : S4800x2.Transposes [1, 0] S2x4800
  inb_S400x2_S400x1_0_0 : ∀ a, (![0, 0] : Fin 2 → Nat) a + S400x1.size a ≤ S400x2.size a
  h_S400x1 : 0 < S400x1.numel
  shapeCasts_S400x1_S400x1 : S400x1.ShapeCasts S400x1
  inb_S400x2_S400x1_0_1 : ∀ a, (![0, 1] : Fin 2 → Nat) a + S400x1.size a ≤ S400x2.size a
  inb_S2x4800_S1x4800_0_0 : ∀ a, (![0, 0] : Fin 2 → Nat) a + S1x4800.size a ≤ S2x4800.size a
  h_S1x4800 : 0 < S1x4800.numel
  shapeCasts_S1x4800_S1x4800 : S1x4800.ShapeCasts S1x4800
  inb_S2x4800_S1x4800_1_0 : ∀ a, (![1, 0] : Fin 2 → Nat) a + S1x4800.size a ≤ S2x4800.size a
  broadcasts_S400x1_S400x4800 : S400x1.Broadcasts S400x4800
  broadcasts_S1x4800_S400x4800 : S1x4800.Broadcasts S400x4800
  inb_S400x4800_S400x4800_0_0 : ∀ a, (![0, 0] : Fin 2 → Nat) a + S400x4800.size a ≤ S400x4800.size a
  h_S400x4800 : 0 < S400x4800.numel
  shapeCasts_S12000x4800_S8x1500x4800 : S12000x4800.ShapeCasts S8x1500x4800
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2.size a ≤ S12000x2.size a
  hwx0_0 : ∀ i : grid0.Coords, EltTy.bits .f32 = 32 ∨ (Rect.block (s := S12000x2) S400x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x2.size a ≤ S12000x2.size a
  hwx0_1 : ∀ i : grid0.Coords, EltTy.bits .f32 = 32 ∨ (Rect.block (s := S12000x2) S400x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x4800.size a ≤ S2x4800.size a
  hwx0_2 : ∀ i : grid0.Coords, EltTy.bits .f32 = 32 ∨ (Rect.block (s := S2x4800) S2x4800.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x4800.size a ≤ S2x4800.size a
  hwx0_3 : ∀ i : grid0.Coords, EltTy.bits .f32 = 32 ∨ (Rect.block (s := S2x4800) S2x4800.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x4800.size a ≤ S12000x4800.size a
  hwx0_4 : ∀ i : grid0.Coords, EltTy.bits .f32 = 32 ∨ (Rect.block (s := S12000x4800) S400x4800.size (cc0_transform_4 i) (hinb0_4 i)).WholeWords (EltTy.packing .f32)

variable [Facts₀]

abbrev win0_0 : Pipeline.Window sig grid0 :=
  Pipeline.Window.ofSpec (Memref.whole main_v0) S400x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x4800.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2x4800.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S400x4800.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1500x2 : Shape := ⟨3, ![8, 1500, 2]⟩
abbrev S4800x2 : Shape := ⟨2, ![4800, 2]⟩
abbrev S12000x2 : Shape := ⟨2, ![12000, 2]⟩
abbrev S_ : Shape := ⟨0, ![]⟩
abbrev S12000x1x2 : Shape := ⟨3, ![12000, 1, 2]⟩
abbrev S1x4800x2 : Shape := ⟨3, ![1, 4800, 2]⟩
abbrev S12000x4800x2 : Shape := ⟨3, ![12000, 4800, 2]⟩
abbrev S12000x4800 : Shape := ⟨2, ![12000, 4800]⟩
abbrev S8x1500x4800 : Shape := ⟨3, ![8, 1500, 4800]⟩

abbrev nBuf : Space → Nat
  | .hbm => 90
  | .vmem => 0
  | .smem => 0
  | _ => 0

abbrev bufTy : (tb : Table) → Fin (tcTables nBuf tb) → BufTy
  | .hbm, ⟨0, _⟩ => ⟨S8x1500x2, .f32⟩
  | .hbm, ⟨1, _⟩ => ⟨S8x1500x2, .f32⟩
  | .hbm, ⟨2, _⟩ => ⟨S4800x2, .f32⟩
  | .hbm, ⟨3, _⟩ => ⟨S4800x2, .f32⟩
  | .hbm, ⟨4, _⟩ => ⟨S12000x2, .f32⟩
  | .hbm, ⟨5, _⟩ => ⟨S12000x2, .f32⟩
  | .hbm, ⟨6, _⟩ => ⟨S12000x2, .f32⟩
  | .hbm, ⟨7, _⟩ => ⟨S_, .f32⟩
  | .hbm, ⟨8, _⟩ => ⟨S12000x2, .f32⟩
  | .hbm, ⟨9, _⟩ => ⟨S12000x2, .f32⟩
  | .hbm, ⟨10, _⟩ => ⟨S12000x2, .f32⟩
  | .hbm, ⟨11, _⟩ => ⟨S12000x2, .f32⟩
  | .hbm, ⟨12, _⟩ => ⟨S12000x2, .i1⟩
  | .hbm, ⟨13, _⟩ => ⟨S12000x2, .f32⟩
  | .hbm, ⟨14, _⟩ => ⟨S12000x2, .f32⟩
  | .hbm, ⟨15, _⟩ => ⟨S12000x2, .f32⟩
  | .hbm, ⟨16, _⟩ => ⟨S12000x2, .f32⟩
  | .hbm, ⟨17, _⟩ => ⟨S12000x2, .f32⟩
  | .hbm, ⟨18, _⟩ => ⟨S12000x2, .f32⟩
  | .hbm, ⟨19, _⟩ => ⟨S12000x2, .f32⟩
  | .hbm, ⟨20, _⟩ => ⟨S12000x2, .f32⟩
  | .hbm, ⟨21, _⟩ => ⟨S12000x2, .f32⟩
  | .hbm, ⟨22, _⟩ => ⟨S12000x1x2, .f32⟩
  | .hbm, ⟨23, _⟩ => ⟨S12000x2, .f32⟩
  | .hbm, ⟨24, _⟩ => ⟨S12000x2, .f32⟩
  | .hbm, ⟨25, _⟩ => ⟨S_, .f32⟩
  | .hbm, ⟨26, _⟩ => ⟨S12000x2, .f32⟩
  | .hbm, ⟨27, _⟩ => ⟨S12000x2, .f32⟩
  | .hbm, ⟨28, _⟩ => ⟨S12000x2, .f32⟩
  | .hbm, ⟨29, _⟩ => ⟨S12000x2, .f32⟩
  | .hbm, ⟨30, _⟩ => ⟨S12000x2, .i1⟩
  | .hbm, ⟨31, _⟩ => ⟨S12000x2, .f32⟩
  | .hbm, ⟨32, _⟩ => ⟨S12000x2, .f32⟩
  | .hbm, ⟨33, _⟩ => ⟨S12000x2, .f32⟩
  | .hbm, ⟨34, _⟩ => ⟨S12000x2, .f32⟩
  | .hbm, ⟨35, _⟩ => ⟨S12000x2, .f32⟩
  | .hbm, ⟨36, _⟩ => ⟨S12000x2, .f32⟩
  | .hbm, ⟨37, _⟩ => ⟨S12000x2, .f32⟩
  | .hbm, ⟨38, _⟩ => ⟨S12000x2, .f32⟩
  | .hbm, ⟨39, _⟩ => ⟨S12000x2, .f32⟩
  | .hbm, ⟨40, _⟩ => ⟨S12000x1x2, .f32⟩
  | .hbm, ⟨41, _⟩ => ⟨S1x4800x2, .f32⟩
  | .hbm, ⟨42, _⟩ => ⟨S12000x4800x2, .f32⟩
  | .hbm, ⟨43, _⟩ => ⟨S12000x4800x2, .f32⟩
  | .hbm, ⟨44, _⟩ => ⟨S12000x4800x2, .f32⟩
  | .hbm, ⟨45, _⟩ => ⟨S_, .f32⟩
  | .hbm, ⟨46, _⟩ => ⟨S1x4800x2, .f32⟩
  | .hbm, ⟨47, _⟩ => ⟨S1x4800x2, .f32⟩
  | .hbm, ⟨48, _⟩ => ⟨S12000x4800x2, .f32⟩
  | .hbm, ⟨49, _⟩ => ⟨S12000x4800x2, .f32⟩
  | .hbm, ⟨50, _⟩ => ⟨S12000x4800x2, .f32⟩
  | .hbm, ⟨51, _⟩ => ⟨S12000x4800x2, .f32⟩
  | .hbm, ⟨52, _⟩ => ⟨S12000x4800x2, .f32⟩
  | .hbm, ⟨53, _⟩ => ⟨S12000x4800x2, .i1⟩
  | .hbm, ⟨54, _⟩ => ⟨S_, .f32⟩
  | .hbm, ⟨55, _⟩ => ⟨S12000x4800x2, .f32⟩
  | .hbm, ⟨56, _⟩ => ⟨S12000x4800x2, .f32⟩
  | .hbm, ⟨57, _⟩ => ⟨S_, .f32⟩
  | .hbm, ⟨58, _⟩ => ⟨S12000x4800x2, .f32⟩
  | .hbm, ⟨59, _⟩ => ⟨S12000x4800x2, .i1⟩
  | .hbm, ⟨60, _⟩ => ⟨S_, .f32⟩
  | .hbm, ⟨61, _⟩ => ⟨S12000x4800x2, .f32⟩
  | .hbm, ⟨62, _⟩ => ⟨S12000x4800x2, .f32⟩
  | .hbm, ⟨63, _⟩ => ⟨S_, .f32⟩
  | .hbm, ⟨64, _⟩ => ⟨S12000x4800x2, .f32⟩
  | .hbm, ⟨65, _⟩ => ⟨S12000x4800x2, .i1⟩
  | .hbm, ⟨66, _⟩ => ⟨S_, .f32⟩
  | .hbm, ⟨67, _⟩ => ⟨S12000x4800x2, .f32⟩
  | .hbm, ⟨68, _⟩ => ⟨S12000x4800x2, .f32⟩
  | .hbm, ⟨69, _⟩ => ⟨S_, .f32⟩
  | .hbm, ⟨70, _⟩ => ⟨S12000x4800, .f32⟩
  | .hbm, ⟨71, _⟩ => ⟨S_, .f32⟩
  | .hbm, ⟨72, _⟩ => ⟨S12000x4800, .f32⟩
  | .hbm, ⟨73, _⟩ => ⟨S12000x4800, .f32⟩
  | .hbm, ⟨74, _⟩ => ⟨S12000x1x2, .f32⟩
  | .hbm, ⟨75, _⟩ => ⟨S1x4800x2, .f32⟩
  | .hbm, ⟨76, _⟩ => ⟨S12000x4800x2, .f32⟩
  | .hbm, ⟨77, _⟩ => ⟨S12000x4800x2, .f32⟩
  | .hbm, ⟨78, _⟩ => ⟨S12000x4800x2, .f32⟩
  | .hbm, ⟨79, _⟩ => ⟨S12000x4800x2, .f32⟩
  | .hbm, ⟨80, _⟩ => ⟨S_, .f32⟩
  | .hbm, ⟨81, _⟩ => ⟨S12000x4800, .f32⟩
  | .hbm, ⟨82, _⟩ => ⟨S_, .f32⟩
  | .hbm, ⟨83, _⟩ => ⟨S12000x4800, .f32⟩
  | .hbm, ⟨84, _⟩ => ⟨S12000x4800, .f32⟩
  | .hbm, ⟨85, _⟩ => ⟨S_, .f32⟩
  | .hbm, ⟨86, _⟩ => ⟨S12000x4800, .f32⟩
  | .hbm, ⟨87, _⟩ => ⟨S12000x4800, .f32⟩
  | .hbm, ⟨88, _⟩ => ⟨S12000x4800, .f32⟩
  | .hbm, ⟨89, _⟩ => ⟨S8x1500x4800, .f32⟩
  | _, _ => ⟨S8x1500x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_call1_v0 : Ref sig .tc := ⟨.hbm, 24, rfl⟩
abbrev main_call1_call0_cst : Ref sig .tc := ⟨.hbm, 25, rfl⟩
abbrev main_call1_call0_v0 : Ref sig .tc := ⟨.hbm, 26, rfl⟩
abbrev main_call1_call0_v1 : Ref sig .tc := ⟨.hbm, 27, rfl⟩
abbrev main_call1_call0_v2 : Ref sig .tc := ⟨.hbm, 28, rfl⟩
abbrev main_call1_call0_v3 : Ref sig .tc := ⟨.hbm, 29, rfl⟩
abbrev main_call1_call0_v4 : Ref sig .tc := ⟨.hbm, 30, rfl⟩
abbrev main_call1_call0_v5 : Ref sig .tc := ⟨.hbm, 31, rfl⟩
abbrev main_call1_call0_v6 : Ref sig .tc := ⟨.hbm, 32, rfl⟩
abbrev main_call1_call0_v7 : Ref sig .tc := ⟨.hbm, 33, rfl⟩
abbrev main_call1_call0_v8 : Ref sig .tc := ⟨.hbm, 34, rfl⟩
abbrev main_call1_call0_v9 : Ref sig .tc := ⟨.hbm, 35, rfl⟩
abbrev main_call1_call0_v10 : Ref sig .tc := ⟨.hbm, 36, rfl⟩
abbrev main_call1_call0_v11 : Ref sig .tc := ⟨.hbm, 37, rfl⟩
abbrev main_call1_v1 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_cst : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_call2_v0 : Ref sig .tc := ⟨.hbm, 53, rfl⟩
abbrev main_call2_cst : Ref sig .tc := ⟨.hbm, 54, rfl⟩
abbrev main_call2_call0_v0 : Ref sig .tc := ⟨.hbm, 55, rfl⟩
abbrev main_call2_v1 : Ref sig .tc := ⟨.hbm, 56, rfl⟩
abbrev main_call2_cst_0 : Ref sig .tc := ⟨.hbm, 57, rfl⟩
abbrev main_call2_v2 : Ref sig .tc := ⟨.hbm, 58, rfl⟩
abbrev main_call2_v3 : Ref sig .tc := ⟨.hbm, 59, rfl⟩
abbrev main_call2_cst_1 : Ref sig .tc := ⟨.hbm, 60, rfl⟩
abbrev main_call2_call1_v0 : Ref sig .tc := ⟨.hbm, 61, rfl⟩
abbrev main_call2_v4 : Ref sig .tc := ⟨.hbm, 62, rfl⟩
abbrev main_call2_cst_2 : Ref sig .tc := ⟨.hbm, 63, rfl⟩
abbrev main_call2_v5 : Ref sig .tc := ⟨.hbm, 64, rfl⟩
abbrev main_call2_v6 : Ref sig .tc := ⟨.hbm, 65, rfl⟩
abbrev main_call2_cst_3 : Ref sig .tc := ⟨.hbm, 66, rfl⟩
abbrev main_call2_call2_v0 : Ref sig .tc := ⟨.hbm, 67, rfl⟩
abbrev main_v18 : Ref sig .tc := ⟨.hbm, 68, rfl⟩
abbrev main_cst_0 : Ref sig .tc := ⟨.hbm, 69, rfl⟩
abbrev main_v19 : Ref sig .tc := ⟨.hbm, 70, rfl⟩
abbrev main_cst_1 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_cst_2 : Ref sig .tc := ⟨.hbm, 80, rfl⟩
abbrev main_v28 : Ref sig .tc := ⟨.hbm, 81, rfl⟩
abbrev main_cst_3 : Ref sig .tc := ⟨.hbm, 82, rfl⟩
abbrev main_v29 : Ref sig .tc := ⟨.hbm, 83, rfl⟩
abbrev main_v30 : Ref sig .tc := ⟨.hbm, 84, rfl⟩
abbrev main_cst_4 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩

abbrev nD : Nat := 1
abbrev τ : Topo := Topo.v7x

variable {F : FTy → Type} [FloatOps F]

class Facts₀ : Prop where
  shapeCasts_S8x1500x2_S12000x2 : S8x1500x2.ShapeCasts S12000x2
  bcast_S_S12000x2 : S_.BroadcastsInDim S12000x2 (![] : Fin 0 → Fin S12000x2.rank)
  bcast_S12000x2_S12000x1x2_0_2 : S12000x2.BroadcastsInDim S12000x1x2 (![0, 2] : Fin 2 → Fin S12000x1x2.rank)
  bcast_S4800x2_S1x4800x2_1_2 : S4800x2.BroadcastsInDim S1x4800x2 (![1, 2] : Fin 2 → Fin S1x4800x2.rank)
  bcast_S1x4800x2_S12000x4800x2_0_1_2 : S1x4800x2.BroadcastsInDim S12000x4800x2 (![0, 1, 2] : Fin 3 → Fin S12000x4800x2.rank)
  bcast_S12000x1x2_S12000x4800x2_0_1_2 : S12000x1x2.BroadcastsInDim S12000x4800x2 (![0, 1, 2] : Fin 3 → Fin S12000x4800x2.rank)
  bcast_S_S1x4800x2 : S_.BroadcastsInDim S1x4800x2 (![] : Fin 0 → Fin S1x4800x2.rank)
  bcast_S_S12000x4800x2 : S_.BroadcastsInDim S12000x4800x2 (![] : Fin 0 → Fin S12000x4800x2.rank)
  reducesTo_S12000x4800x2_S12000x4800_d2 : S12000x4800x2.ReducesTo [2] S12000x4800
  h_S_ : 0 < S_.numel
  bcast_S_S12000x4800 : S_.BroadcastsInDim S12000x4800 (![] : Fin 0 → Fin S12000x4800.rank)
  shapeCasts_S12000x4800_S8x1500x4800 : S12000x4800.ShapeCasts S8x1500x4800

variable [Facts₀]

class Facts : Prop extends Facts₀ where

variable [Facts]
-- ==== Proof.RefTerm.lean ====
/-
  The reference program's result as ONE composed function of its four argument arrays, stage by stage.
  With l the logits [N, 2] (N = 12000 rows), p the predicted points [N, 2], t the labels [M, 2] and q the target
  points [M, 2] (M = 4800):
    softplus z   = where(z - 0 ≠ z - 0, z + 0, max(z, 0) + log1p(exp(-|z - 0|)))
    logsig x     = -softplus(-x)
    bce[n, j, c] = -(t[j, c] · logsig(l)[n, c] + (1 - t[j, c]) · logsig(-l)[n, c])
    clean b      = b with +∞ and -∞ replaced by the largest and smallest finite floats (and a b ≠ b test)
    out[n, j]    = 5 · (0 + Σ_c |p[n, c] - q[j, c]|) + 2 · ((0 + Σ_c clean(bce)[n, j, c]) / 2)
  and the result is out regrouped as [8, 1500, M].
-/
import proofs.«138944_j43284680409696_2_alg».proof.ReferenceIdeal

noncomputable section

namespace Cert.ReferenceIdeal.Term

open Idealize.ShloMosaic Cert.ReferenceIdeal Cert.ReferenceIdeal.Facts₀

variable {F : FTy → Type} [FloatOps F] [Cert.ReferenceIdeal.Facts]

/-- The zero word at every entry of an [N, 2] array. -/
def zeroN : FVec F S12000x2 .f32 := broadcastInDim S12000x2 ![] bcast_S_S12000x2 (constant S_ .f32 0x00000000#32)

/-- softplus as the host spells it. -/
def softplusH (z : FVec F S12000x2 .f32) : FVec F S12000x2 .f32 :=
  select (cmpf .une (subf z zeroN) (subf z zeroN)) (addf z zeroN)
    (addf (maximumf z zeroN) (Host.log1p (Host.exp (Host.negf (Host.absf (subf z zeroN))))))

/-- log σ(x) = -softplus(-x). -/
def logSigH (x : FVec F S12000x2 .f32) : FVec F S12000x2 .f32 := Host.negf (softplusH (Host.negf x))

/-- A per-row array [N, 2] repeated along the M targets. -/
def alongM (v : FVec F S12000x2 .f32) : FVec F S12000x4800x2 .f32 :=
  broadcastInDim S12000x4800x2 ![0, 1, 2] bcast_S12000x1x2_S12000x4800x2_0_1_2
    (broadcastInDim S12000x1x2 ![0, 2] bcast_S12000x2_S12000x1x2_0_2 v)

/-- A per-target array [M, 2] with a leading unit axis. -/
def lead1 (a : FVec F S4800x2 .f32) : FVec F S1x4800x2 .f32 := broadcastInDim S1x4800x2 ![1, 2] bcast_S4800x2_S1x4800x2_1_2 a

/-- A [1, M, 2] array repeated along the N rows. -/
def alongN (w : FVec F S1x4800x2 .f32) : FVec F S12000x4800x2 .f32 :=
  broadcastInDim S12000x4800x2 ![0, 1, 2] bcast_S1x4800x2_S12000x4800x2_0_1_2 w

/-- A float word at every entry of an [N, M, 2] array. -/
def splat3 (b : BitVec 32) : FVec F S12000x4800x2 .f32 :=
  broadcastInDim S12000x4800x2 ![] bcast_S_S12000x4800x2 (constant S_ .f32 b)

/-- A float word at every entry of an [N, M] array. -/
def splat2 (b : BitVec 32) : FVec F S12000x4800 .f32 :=
  broadcastInDim S12000x4800 ![] bcast_S_S12000x4800 (constant S_ .f32 b)

/-- The binary cross-entropy terms [N, M, 2]. -/
def bceH (x0 : FVec F S12000x2 .f32) (a2 : FVec F S4800x2 .f32) : FVec F S12000x4800x2 .f32 :=
  Host.negf (addf (mulf (alongN (lead1 a2)) (alongM (logSigH x0)))
    (mulf (alongN (subf (broadcastInDim S1x4800x2 ![] bcast_S_S1x4800x2 (constant S_ .f32 0x3F800000#32)) (lead1 a2)))
      (alongM (logSigH (Host.negf x0)))))

/-- nan_to_num: three selects, on b ≠ b, on = +∞ and on = -∞. -/
def cleanH (b : FVec F S12000x4800x2 .f32) : FVec F S12000x4800x2 .f32 :=
  select (cmpf .oeq (select (cmpf .oeq (select (cmpf .une b b) (splat3 0x00000000#32) b) (splat3 0x7F800000#32)) (splat3 0x7F7FFFFF#32)
      (select (cmpf .une b b) (splat3 0x00000000#32) b)) (splat3 0xFF800000#32)) (splat3 0xFF7FFFFF#32)
    (select (cmpf .oeq (select (cmpf .une b b) (splat3 0x00000000#32) b) (splat3 0x7F800000#32)) (splat3 0x7F7FFFFF#32)
      (select (cmpf .une b b) (splat3 0x00000000#32) b))

/-- The host's sum over the last axis (the two classes / the two coordinates), from the zero word. -/
def sumLast (v : FVec F S12000x4800x2 .f32) : FVec F S12000x4800 .f32 :=
  Host.reduceAdd v (constant S_ .f32 0x00000000#32) reducesTo_S12000x4800x2_S12000x4800_d2 h_S_

/-- The cost matrix [N, M] from the flattened logits x0, flattened points x1, labels a2 and target points a3. -/
def costH (x0 x1 : FVec F S12000x2 .f32) (a2 a3 : FVec F S4800x2 .f32) : FVec F S12000x4800 .f32 :=
  addf (mulf (splat2 0x40A00000#32) (sumLast (Host.absf (subf (alongM x1) (alongN (lead1 a3))))))
    (mulf (splat2 0x40000000#32) (Host.divf (sumLast (cleanH (bceH x0 a2))) (splat2 0x40000000#32)))

/-- The reference's result [8, 1500, M] from the four argument arrays. -/
def refOut (a0 a1 : FVec F S8x1500x2 .f32) (a2 a3 : FVec F S4800x2 .f32) : FVec F S8x1500x4800 .f32 :=
  shapeCast S8x1500x4800
    (costH (shapeCast S12000x2 a0 shapeCasts_S8x1500x2_S12000x2) (shapeCast S12000x2 a1 shapeCasts_S8x1500x2_S12000x2) a2 a3)
    shapeCasts_S12000x4800_S8x1500x4800

end Cert.ReferenceIdeal.Term

end
-- ==== Proof.RefRun.lean ====
/-
  The reference program, once each helper function is written out at the place it is called, is a straight
  line of 86 array operations: two regroupings of the arguments [8, 1500, 2] as [12000, 2]; log σ of the logits
  and of their negation, each as -softplus(-x) with softplus z = where(z - 0 ≠ z - 0, z + 0, max(z, 0) + log1p(exp(-|z - 0|)));
  the two products with the labels and one minus the labels, repeated along the other axis, their sum negated;
  the three selects that replace a non-number by zero and the two infinities by the largest and smallest finite
  floats; the sums over the last axis of those terms and of the absolute coordinate differences; the weighted
  sum 5 · (…) + 2 · ((…) / 2); and the regrouping [12000, 4800] as [8, 1500, 4800].
  Each operation writes one array of its own and reads arrays written before it, so what the result array holds
  at the end is the composition of the operations' functions along that line, applied to the four argument
  arrays: the function refOut. The argument arrays are written by no operation and keep their contents.
-/
import proofs.«138944_j43284680409696_2_alg».proof.Proof.RefTerm
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The 86 operations in order, the helper functions' operations written at their calls: the two regroupings;
    sixteen for log σ of the logits (a negation, softplus's fourteen, a negation); its repetition's first step and
    the negated logits; sixteen for log σ of those; thirteen up to the negated cross-entropy terms; sixteen for the
    replacement of non-numbers and infinities (three times a comparison, the replacement's constant, its repetition
    over the array and the select; before the second and the third comparison the infinity's constant and its
    repetition); twenty-one for the two sums, the weights and the last regrouping. -/
abbrev ops : List (HloOp τ sig (Elt F)) :=
  [
    StableHlo.reshape main_arg0 main_v0 rfl shapeCasts_S8x1500x2_S12000x2,
    StableHlo.reshape main_arg1 main_v1 rfl shapeCasts_S8x1500x2_S12000x2,
    StableHlo.TRef.unary (.of main_v0) main_call0.v0 Host.negf,
    StableHlo.TRef.nullary main_call0.call0.cst (constant S_ .f32 0x00000000#32),
    StableHlo.TRef.unary main_call0.call0.cst main_call0.call0.v0 (broadcastInDim S12000x2 ![] bcast_S_S12000x2),
    StableHlo.TRef.binary main_call0.v0 main_call0.call0.v0 main_call0.call0.v1 maximumf,
    StableHlo.TRef.unary main_call0.call0.cst main_call0.call0.v2 (broadcastInDim S12000x2 ![] bcast_S_S12000x2),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S12000x2 ![] bcast_S_S12000x2),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.unary main_v2 main_v3 (broadcastInDim S12000x1x2 ![0, 2] bcast_S12000x2_S12000x1x2_0_2 : (⟨S12000x2, .f32⟩ : BufTy).Contents (Elt F) → (⟨S12000x1x2, .f32⟩ : BufTy).Contents (Elt F)),
    StableHlo.unary main_v0 main_v4 (Host.negf : (⟨S12000x2, .f32⟩ : BufTy).Contents (Elt F) → (⟨S12000x2, .f32⟩ : BufTy).Contents (Elt F)),
    StableHlo.TRef.unary (.of main_v4) main_call1.v0 Host.negf,
    StableHlo.TRef.nullary main_call1.call0.cst (constant S_ .f32 0x00000000#32),
    StableHlo.TRef.unary main_call1.call0.cst main_call1.call0.v0 (broadcastInDim S12000x2 ![] bcast_S_S12000x2),
    StableHlo.TRef.binary main_call1.v0 main_call1.call0.v0 main_call1.call0.v1 maximumf,
    StableHlo.TRef.unary main_call1.call0.cst main_call1.call0.v2 (broadcastInDim S12000x2 ![] bcast_S_S12000x2),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S12000x2 ![] bcast_S_S12000x2),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.unary main_v5 main_v6 (broadcastInDim S12000x1x2 ![0, 2] bcast_S12000x2_S12000x1x2_0_2 : (⟨S12000x2, .f32⟩ : BufTy).Contents (Elt F) → (⟨S12000x1x2, .f32⟩ : BufTy).Contents (Elt F)),
    StableHlo.unary main_arg2 main_v7 (broadcastInDim S1x4800x2 ![1, 2] bcast_S4800x2_S1x4800x2_1_2 : (⟨S4800x2, .f32⟩ : BufTy).Contents (Elt F) → (⟨S1x4800x2, .f32⟩ : BufTy).Contents (Elt F)),
    StableHlo.unary main_v7 main_v8 (broadcastInDim S12000x4800x2 ![0, 1, 2] bcast_S1x4800x2_S12000x4800x2_0_1_2 : (⟨S1x4800x2, .f32⟩ : BufTy).Contents (Elt F) → (⟨S12000x4800x2, .f32⟩ : BufTy).Contents (Elt F)),
    StableHlo.unary main_v3 main_v9 (broadcastInDim S12000x4800x2 ![0, 1, 2] bcast_S12000x1x2_S12000x4800x2_0_1_2 : (⟨S12000x1x2, .f32⟩ : BufTy).Contents (Elt F) → (⟨S12000x4800x2, .f32⟩ : BufTy).Contents (Elt F)),
    StableHlo.binary main_v8 main_v9 main_v10 (mulf : (⟨S12000x4800x2, .f32⟩ : BufTy).Contents (Elt F) → (⟨S12000x4800x2, .f32⟩ : BufTy).Contents (Elt F) → (⟨S12000x4800x2, .f32⟩ : BufTy).Contents (Elt F)),
    StableHlo.nullary main_cst (constant S_ .f32 0x3F800000#32),
    StableHlo.unary main_cst main_v11 (broadcastInDim S1x4800x2 ![] bcast_S_S1x4800x2 : (⟨S_, .f32⟩ : BufTy).Contents (Elt F) → (⟨S1x4800x2, .f32⟩ : BufTy).Contents (Elt F)),
    StableHlo.binary main_v11 main_v7 main_v12 (subf : (⟨S1x4800x2, .f32⟩ : BufTy).Contents (Elt F) → (⟨S1x4800x2, .f32⟩ : BufTy).Contents (Elt F) → (⟨S1x4800x2, .f32⟩ : BufTy).Contents (Elt F)),
    StableHlo.unary main_v12 main_v13 (broadcastInDim S12000x4800x2 ![0, 1, 2] bcast_S1x4800x2_S12000x4800x2_0_1_2 : (⟨S1x4800x2, .f32⟩ : BufTy).Contents (Elt F) → (⟨S12000x4800x2, .f32⟩ : BufTy).Contents (Elt F)),
    StableHlo.unary main_v6 main_v14 (broadcastInDim S12000x4800x2 ![0, 1, 2] bcast_S12000x1x2_S12000x4800x2_0_1_2 : (⟨S12000x1x2, .f32⟩ : BufTy).Contents (Elt F) → (⟨S12000x4800x2, .f32⟩ : BufTy).Contents (Elt F)),
    StableHlo.binary main_v13 main_v14 main_v15 (mulf : (⟨S12000x4800x2, .f32⟩ : BufTy).Contents (Elt F) → (⟨S12000x4800x2, .f32⟩ : BufTy).Contents (Elt F) → (⟨S12000x4800x2, .f32⟩ : BufTy).Contents (Elt F)),
    StableHlo.binary main_v10 main_v15 main_v16 (addf : (⟨S12000x4800x2, .f32⟩ : BufTy).Contents (Elt F) → (⟨S12000x4800x2, .f32⟩ : BufTy).Contents (Elt F) → (⟨S12000x4800x2, .f32⟩ : BufTy).Contents (Elt F)),
    StableHlo.unary main_v16 main_v17 (Host.negf : (⟨S12000x4800x2, .f32⟩ : BufTy).Contents (Elt F) → (⟨S12000x4800x2, .f32⟩ : BufTy).Contents (Elt F)),
    StableHlo.TRef.binary (.of main_v17) (.of main_v17) main_call2.v0 (cmpf .une),
    StableHlo.TRef.nullary main_call2.cst (constant S_ .f32 0x00000000#32),
    StableHlo.TRef.unary main_call2.cst main_call2.call0.v0 (broadcastInDim S12000x4800x2 ![] bcast_S_S12000x4800x2),
    StableHlo.TRef.ternary main_call2.v0 main_call2.call0.v0 (.of main_v17) main_call2.call0.v1 select,
    StableHlo.TRef.nullary main_call2.cst_0 (constant S_ .f32 0x7F800000#32),
    StableHlo.TRef.unary main_call2.cst_0 main_call2.v2 (broadcastInDim S12000x4800x2 ![] bcast_S_S12000x4800x2),
    StableHlo.TRef.binary main_call2.call0.v1 main_call2.v2 main_call2.v3 (cmpf .oeq),
    StableHlo.TRef.nullary main_call2.cst_1 (constant S_ .f32 0x7F7FFFFF#32),
    StableHlo.TRef.unary main_call2.cst_1 main_call2.call1.v0 (broadcastInDim S12000x4800x2 ![] bcast_S_S12000x4800x2),
    StableHlo.TRef.ternary main_call2.v3 main_call2.call1.v0 main_call2.call0.v1 main_call2.call1.v1 select,
    StableHlo.TRef.nullary main_call2.cst_2 (constant S_ .f32 0xFF800000#32),
    StableHlo.TRef.unary main_call2.cst_2 main_call2.v5 (broadcastInDim S12000x4800x2 ![] bcast_S_S12000x4800x2),
    StableHlo.TRef.binary main_call2.call1.v1 main_call2.v5 main_call2.v6 (cmpf .oeq),
    StableHlo.TRef.nullary main_call2.cst_3 (constant S_ .f32 0xFF7FFFFF#32),
    StableHlo.TRef.unary main_call2.cst_3 main_call2.call2.v0 (broadcastInDim S12000x4800x2 ![] bcast_S_S12000x4800x2),
    StableHlo.TRef.ternary main_call2.v6 main_call2.call2.v0 main_call2.call1.v1 main_call2.call2.v1 select,
    StableHlo.nullary main_cst_0 (constant S_ .f32 0x00000000#32),
    StableHlo.binary main_v18 main_cst_0 main_v19 ((fun x v => Host.reduceAdd x v reducesTo_S12000x4800x2_S12000x4800_d2 h_S_) : (⟨S12000x4800x2, .f32⟩ : BufTy).Contents (Elt F) → (⟨S_, .f32⟩ : BufTy).Contents (Elt F) → (⟨S12000x4800, .f32⟩ : BufTy).Contents (Elt F)),
    StableHlo.nullary main_cst_1 (constant S_ .f32 0x40000000#32),
    StableHlo.unary main_cst_1 main_v20 (broadcastInDim S12000x4800 ![] bcast_S_S12000x4800 : (⟨S_, .f32⟩ : BufTy).Contents (Elt F) → (⟨S12000x4800, .f32⟩ : BufTy).Contents (Elt F)),
    StableHlo.binary main_v19 main_v20 main_v21 (Host.divf : (⟨S12000x4800, .f32⟩ : BufTy).Contents (Elt F) → (⟨S12000x4800, .f32⟩ : BufTy).Contents (Elt F) → (⟨S12000x4800, .f32⟩ : BufTy).Contents (Elt F)),
    StableHlo.unary main_v1 main_v22 (broadcastInDim S12000x1x2 ![0, 2] bcast_S12000x2_S12000x1x2_0_2 : (⟨S12000x2, .f32⟩ : BufTy).Contents (Elt F) → (⟨S12000x1x2, .f32⟩ : BufTy).Contents (Elt F)),
    StableHlo.unary main_arg3 main_v23 (broadcastInDim S1x4800x2 ![1, 2] bcast_S4800x2_S1x4800x2_1_2 : (⟨S4800x2, .f32⟩ : BufTy).Contents (Elt F) → (⟨S1x4800x2, .f32⟩ : BufTy).Contents (Elt F)),
    StableHlo.unary main_v22 main_v24 (broadcastInDim S12000x4800x2 ![0, 1, 2] bcast_S12000x1x2_S12000x4800x2_0_1_2 : (⟨S12000x1x2, .f32⟩ : BufTy).Contents (Elt F) → (⟨S12000x4800x2, .f32⟩ : BufTy).Contents (Elt F)),
    StableHlo.unary main_v23 main_v25 (broadcastInDim S12000x4800x2 ![0, 1, 2] bcast_S1x4800x2_S12000x4800x2_0_1_2 : (⟨S1x4800x2, .f32⟩ : BufTy).Contents (Elt F) → (⟨S12000x4800x2, .f32⟩ : BufTy).Contents (Elt F)),
    StableHlo.binary main_v24 main_v25 main_v26 (subf : (⟨S12000x4800x2, .f32⟩ : BufTy).Contents (Elt F) → (⟨S12000x4800x2, .f32⟩ : BufTy).Contents (Elt F) → (⟨S12000x4800x2, .f32⟩ : BufTy).Contents (Elt F)),
    StableHlo.unary main_v26 main_v27 (Host.absf : (⟨S12000x4800x2, .f32⟩ : BufTy).Contents (Elt F) → (⟨S12000x4800x2, .f32⟩ : BufTy).Contents (Elt F)),
    StableHlo.nullary main_cst_2 (constant S_ .f32 0x00000000#32),
    StableHlo.binary main_v27 main_cst_2 main_v28 ((fun x v => Host.reduceAdd x v reducesTo_S12000x4800x2_S12000x4800_d2 h_S_) : (⟨S12000x4800x2, .f32⟩ : BufTy).Contents (Elt F) → (⟨S_, .f32⟩ : BufTy).Contents (Elt F) → (⟨S12000x4800, .f32⟩ : BufTy).Contents (Elt F)),
    StableHlo.nullary main_cst_3 (constant S_ .f32 0x40A00000#32),
    StableHlo.unary main_cst_3 main_v29 (broadcastInDim S12000x4800 ![] bcast_S_S12000x4800 : (⟨S_, .f32⟩ : BufTy).Contents (Elt F) → (⟨S12000x4800, .f32⟩ : BufTy).Contents (Elt F)),
    StableHlo.binary main_v29 main_v28 main_v30 (mulf : (⟨S12000x4800, .f32⟩ : BufTy).Contents (Elt F) → (⟨S12000x4800, .f32⟩ : BufTy).Contents (Elt F) → (⟨S12000x4800, .f32⟩ : BufTy).Contents (Elt F)),
    StableHlo.nullary main_cst_4 (constant S_ .f32 0x40000000#32),
    StableHlo.unary main_cst_4 main_v31 (broadcastInDim S12000x4800 ![] bcast_S_S12000x4800 : (⟨S_, .f32⟩ : BufTy).Contents (Elt F) → (⟨S12000x4800, .f32⟩ : BufTy).Contents (Elt F)),
    StableHlo.binary main_v31 main_v21 main_v32 (mulf : (⟨S12000x4800, .f32⟩ : BufTy).Contents (Elt F) → (⟨S12000x4800, .f32⟩ : BufTy).Contents (Elt F) → (⟨S12000x4800, .f32⟩ : BufTy).Contents (Elt F)),
    StableHlo.binary main_v30 main_v32 main_v33 (addf : (⟨S12000x4800, .f32⟩ : BufTy).Contents (Elt F) → (⟨S12000x4800, .f32⟩ : BufTy).Contents (Elt F) → (⟨S12000x4800, .f32⟩ : BufTy).Contents (Elt F)),
    StableHlo.reshape main_v33 main_v34 rfl shapeCasts_S12000x4800_S8x1500x4800 ]

set_option maxHeartbeats 2000000 in
set_option maxRecDepth 8192 in
/-- The program is that line: with each helper function's definition put at its call and the call's arrays at
    their names, both sides are one chain of the same 86 steps once the sequencing is re-associated. -/
theorem main_eq (c : Dev nD) : main (F := F) c = seq ops := by
  simp only [main, fn_log_sigmoid.body, fn_softplus.body, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes arrays of the device only. -/
theorem ops_sub : (ops : List (HloOp τ sig (Elt F))).Forall fun op => op.bufs ⊆ tcRefs τ sig :=
  ⟨
    reshape_bufs_sub .., reshape_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    unary_bufs_sub .., unary_bufs_sub .., unary_bufs_sub .., nullary_bufs_sub .., unary_bufs_sub .., binary_bufs_sub ..,
    unary_bufs_sub .., binary_bufs_sub .., binary_bufs_sub .., unary_bufs_sub .., binary_bufs_sub .., unary_bufs_sub ..,
    unary_bufs_sub .., unary_bufs_sub .., unary_bufs_sub .., binary_bufs_sub .., ternary_bufs_sub .., unary_bufs_sub ..,
    unary_bufs_sub .., unary_bufs_sub .., unary_bufs_sub .., unary_bufs_sub .., binary_bufs_sub .., nullary_bufs_sub ..,
    unary_bufs_sub .., binary_bufs_sub .., unary_bufs_sub .., unary_bufs_sub .., binary_bufs_sub .., binary_bufs_sub ..,
    unary_bufs_sub .., binary_bufs_sub .., nullary_bufs_sub .., unary_bufs_sub .., ternary_bufs_sub .., nullary_bufs_sub ..,
    unary_bufs_sub .., binary_bufs_sub .., nullary_bufs_sub .., unary_bufs_sub .., ternary_bufs_sub .., nullary_bufs_sub ..,
    unary_bufs_sub .., binary_bufs_sub .., nullary_bufs_sub .., unary_bufs_sub .., ternary_bufs_sub .., nullary_bufs_sub ..,
    binary_bufs_sub .., nullary_bufs_sub .., unary_bufs_sub .., binary_bufs_sub .., unary_bufs_sub .., unary_bufs_sub ..,
    unary_bufs_sub .., unary_bufs_sub .., binary_bufs_sub .., unary_bufs_sub .., nullary_bufs_sub .., binary_bufs_sub ..,
    nullary_bufs_sub .., unary_bufs_sub .., binary_bufs_sub .., nullary_bufs_sub .., unary_bufs_sub .., binary_bufs_sub ..,
    binary_bufs_sub .., reshape_bufs_sub ..⟩

set_option maxHeartbeats 4000000 in
set_option maxRecDepth 8192 in
/-- What the result array holds after the line, from any contents: each operation's function applied to what the
    operations before it left in the arrays it reads, which composed along the line is refOut of the four
    argument arrays' contents. -/
theorem out_eq (V : Valuation τ sig (Elt F)) :
    after ops V (main_v34 : DevRef τ sig)
      = Term.refOut (V (main_arg0 : DevRef τ sig)) (V (main_arg1 : DevRef τ sig)) (V (main_arg2 : DevRef τ sig))
          (V (main_arg3 : DevRef τ sig)) := by
  after_results_simp
  rfl

set_option maxHeartbeats 2000000 in
/-- No operation writes argument array 0: it keeps its contents. -/
theorem arg0_eq (V : Valuation τ sig (Elt F)) :
    after ops V (main_arg0 : DevRef τ sig) = V (main_arg0 : DevRef τ sig) := by
  after_results_simp

set_option maxHeartbeats 2000000 in
/-- No operation writes argument array 1: it keeps its contents. -/
theorem arg1_eq (V : Valuation τ sig (Elt F)) :
    after ops V (main_arg1 : DevRef τ sig) = V (main_arg1 : DevRef τ sig) := by
  after_results_simp

set_option maxHeartbeats 2000000 in
/-- No operation writes argument array 2: it keeps its contents. -/
theorem arg2_eq (V : Valuation τ sig (Elt F)) :
    after ops V (main_arg2 : DevRef τ sig) = V (main_arg2 : DevRef τ sig) := by
  after_results_simp

set_option maxHeartbeats 2000000 in
/-- No operation writes argument array 3: it keeps its contents. -/
theorem arg3_eq (V : Valuation τ sig (Elt F)) :
    after ops V (main_arg3 : DevRef τ sig) = V (main_arg3 : DevRef τ sig) := by
  after_results_simp

/-- On every device, for any float values, from any memory with zero counters: every weakly fair execution of the
    program terminates with the result array at refOut of the four argument arrays' launch contents, and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = Term.refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v34).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.CostLaw.lean ====
/-
  The cost entry as a function of eight real numbers, and the two spellings of it that the kernel and the
  reference compute, shown equal to it on real arguments.

  For a predicted point with logits (l0, l1) and position (p0, p1) and a target with labels (t0, t1) and position
  (q0, q1) the entry is
      5 · (|p0 - q0| + |p1 - q1|) - (t0·l0 + t1·l1) + sp l0 + sp l1,      sp z = max(z, 0) + log(1 + exp(-|z|)).
  Both programs compute softplus as sp, by the same guarded expression, and log σ(x) as -sp(-x). The kernel uses
  log σ(-l) = -sp(l) directly. The reference forms the cross-entropy -(t · log σ(l) + (1 - t) · log σ(-l)); since
  |-l| = |l| the logarithm terms of sp(-l) and sp(l) are the same number and sp(-l) - sp(l) = max(-l, 0) - max(l, 0)
  = -l, so each cross-entropy term is -(t·l) + sp(l). On real numbers no guard of either program fires: a real
  is equal to itself and is neither +∞ nor -∞. The reference's mean over the two classes times 2 is the sum.
-/
import Idealize.ShloMosaic.PureOps.Ideal
import Idealize.ShloMosaic.PureOps.Ideal.Laws
import Idealize.ShloMosaic.Lib.ValueIdx

noncomputable section

namespace Cert.Cost

open Idealize.ShloMosaic

/-! ## The float words the two programs spell -/

theorem w_zero : Ideal.ofBits .f32 0x00000000#32 = 0 := by simp [Ideal.ofBits, Ideal.ieee]
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_five : Ideal.ofBits .f32 0x40A00000#32 = ((5 : ℝ) : EReal) := by
  simp [Ideal.ofBits, Ideal.ieee, -EReal.coe_mul]; norm_num
theorem w_neg_one : Ideal.ofBits .f32 0xBF800000#32 = ((-1 : ℝ) : EReal) := by
  simp [Ideal.ofBits, Ideal.ieee, -EReal.coe_mul]; norm_num
theorem w_top : Ideal.ofBits .f32 0x7F800000#32 = ⊤ := by simp [Ideal.ofBits, Ideal.ieee]
theorem w_bot : Ideal.ofBits .f32 0xFF800000#32 = ⊥ := by simp [Ideal.ofBits, Ideal.ieee]

/-! ## The real function -/

/-- softplus on the reals, in the numerically stable form both programs use. -/
def spR (z : ℝ) : ℝ := max z 0 + Real.log (1 + Real.exp (-|z|))

/-- The cost entry on the reals. -/
def costR (l0 l1 p0 p1 t0 t1 q0 q1 : ℝ) : ℝ :=
  5 * (|p0 - q0| + |p1 - q1|) - (t0 * l0 + t1 * l1) + spR l0 + spR l1

/-- The two softplus values of opposite arguments differ by the argument. -/
theorem spR_neg_sub (l : ℝ) : spR (-l) - spR l = -l := by
  unfold spR
  rw [abs_neg]
  rcases le_total l 0 with h | h
  · rw [max_eq_left (by linarith : (0 : ℝ) ≤ -l), max_eq_right h]; ring
  · rw [max_eq_right (by linarith : -l ≤ (0 : ℝ)), max_eq_left h]; ring

/-! ## The kernel's spelling -/

/-- softplus of l as the kernel body spells it on one entry: the argument arrives as 0 - (0 - l). -/
def spK (l : EReal) : EReal :=
  Scalar.select (Ideal.cmp .one ((Ideal.ofBits .f32 0x00000000#32 - (Ideal.ofBits .f32 0x00000000#32 - l)) - Ideal.ofBits .f32 0x00000000#32)
      ((Ideal.ofBits .f32 0x00000000#32 - (Ideal.ofBits .f32 0x00000000#32 - l)) - Ideal.ofBits .f32 0x00000000#32))
    ((Ideal.ofBits .f32 0x00000000#32 - (Ideal.ofBits .f32 0x00000000#32 - l)) + Ideal.ofBits .f32 0x00000000#32)
    (max (Ideal.ofBits .f32 0x00000000#32 - (Ideal.ofBits .f32 0x00000000#32 - l)) (Ideal.ofBits .f32 0x00000000#32)
      + Ideal.log1p (Ideal.exp (Ideal.ofBits .f32 0x00000000#32
          - max ((Ideal.ofBits .f32 0x00000000#32 - (Ideal.ofBits .f32 0x00000000#32 - l)) - Ideal.ofBits .f32 0x00000000#32)
              (-((Ideal.ofBits .f32 0x00000000#32 - (Ideal.ofBits .f32 0x00000000#32 - l)) - Ideal.ofBits .f32 0x00000000#32)))))

/-- One entry of the kernel's output block from the eight entries it reads. -/
def costK (l0 l1 p0 p1 t0 t1 q0 q1 : EReal) : EReal :=
  Ideal.ofBits .f32 0x40A00000#32 * (max (p0 - q0) (-(p0 - q0)) + max (p1 - q1) (-(p1 - q1)))
    + Ideal.ofBits .f32 0xBF800000#32
      * ((t0 * l0 + t1 * l1) + ((Ideal.ofBits .f32 0x00000000#32 - spK l0) + (Ideal.ofBits .f32 0x00000000#32 - spK l1)))

/-- The embedding of the reals keeps maxima. -/
theorem coe_max (a b : ℝ) : ((max a b : ℝ) : EReal) = max (a : EReal) (b : EReal) :=
  EReal.coe_strictMono.monotone.map_max

theorem one_add_exp_pos (r : ℝ) : ¬ (1 + Real.exp r ≤ 0) := not_le.2 (by positivity)

/-- log1p ∘ exp of a real is the real log(1 + exp r). -/
theorem log1p_exp_real (r : ℝ) : Ideal.log1p (Ideal.exp (r : EReal)) = ((Real.log (1 + Real.exp r) : ℝ) : EReal) := by
  rw [Ideal.exp_coe, Ideal.log1p, ← EReal.coe_one, ← EReal.coe_add, Ideal.log_coe, if_neg (one_add_exp_pos r)]

/-- A real is equal to itself: the guard of either softplus does not fire. -/
theorem cmp_ne_self (p : CmpFPredicate) (hp : p = .one ∨ p = .une) (x : EReal) : Ideal.cmp p x x = 0#1 := by
  rcases hp with rfl | rfl <;> simp [Ideal.cmp]

theorem spK_real (l : ℝ) : spK (l : EReal) = ((spR l : ℝ) : EReal) := by
  unfold spK spR
  rw [cmp_ne_self _ (Or.inl rfl), ValueIdx.select_zero, w_zero, ← EReal.coe_zero]
  simp only [← EReal.coe_sub, ← EReal.coe_neg, ← coe_max, log1p_exp_real, ← EReal.coe_add]
  congr 1
  rw [abs_eq_max_neg]
  simp only [sub_zero, zero_sub, neg_neg]

theorem costK_real (l0 l1 p0 p1 t0 t1 q0 q1 : ℝ) :
    costK l0 l1 p0 p1 t0 t1 q0 q1 = ((costR l0 l1 p0 p1 t0 t1 q0 q1 : ℝ) : EReal) := by
  unfold costK costR
  rw [spK_real, spK_real, w_five, w_neg_one, w_zero, ← EReal.coe_zero]
  simp only [← EReal.coe_sub, ← EReal.coe_neg, ← coe_max, ← EReal.coe_add, ← EReal.coe_mul]
  congr 1
  rw [abs_eq_max_neg, abs_eq_max_neg]
  ring

/-! ## The reference's spelling -/

/-- softplus of z as the reference spells it on one entry. -/
def spH (z : EReal) : EReal :=
  Scalar.select (Ideal.cmp .une (z - Ideal.ofBits .f32 0x00000000#32) (z - Ideal.ofBits .f32 0x00000000#32))
    (z + Ideal.ofBits .f32 0x00000000#32)
    (max z (Ideal.ofBits .f32 0x00000000#32)
      + Ideal.log1p (Ideal.exp (-(max (z - Ideal.ofBits .f32 0x00000000#32) (-(z - Ideal.ofBits .f32 0x00000000#32))))))

/-- log σ(x) = -softplus(-x). -/
def lsH (x : EReal) : EReal := -(spH (-x))

/-- One cross-entropy term from a label t and a logit l. -/
def bceE (t l : EReal) : EReal := -(t * lsH l + (Ideal.ofBits .f32 0x3F800000#32 - t) * lsH (-l))

/-- The reference's clean-up of one entry: 0 where b ≠ b, the largest finite float where the result is +∞, the
    smallest where it is then -∞. -/
def cleanE (b : EReal) : EReal :=
  Scalar.select (Ideal.cmp .oeq (Scalar.select (Ideal.cmp .oeq (Scalar.select (Ideal.cmp .une b b) (Ideal.ofBits .f32 0x00000000#32) b)
        (Ideal.ofBits .f32 0x7F800000#32)) (Ideal.ofBits .f32 0x7F7FFFFF#32) (Scalar.select (Ideal.cmp .une b b) (Ideal.ofBits .f32 0x00000000#32) b))
      (Ideal.ofBits .f32 0xFF800000#32)) (Ideal.ofBits .f32 0xFF7FFFFF#32)
    (Scalar.select (Ideal.cmp .oeq (Scalar.select (Ideal.cmp .une b b) (Ideal.ofBits .f32 0x00000000#32) b)
        (Ideal.ofBits .f32 0x7F800000#32)) (Ideal.ofBits .f32 0x7F7FFFFF#32) (Scalar.select (Ideal.cmp .une b b) (Ideal.ofBits .f32 0x00000000#32) b))

/-- One entry of the reference's cost matrix from the eight entries it depends on. -/
def costHS (l0 l1 p0 p1 t0 t1 q0 q1 : EReal) : EReal :=
  Ideal.ofBits .f32 0x40A00000#32
      * (Ideal.ofBits .f32 0x00000000#32 + (max (p0 - q0) (-(p0 - q0)) + max (p1 - q1) (-(p1 - q1))))
    + Ideal.ofBits .f32 0x40000000#32
      * Ideal.div (Ideal.ofBits .f32 0x00000000#32 + (cleanE (bceE t0 l0) + cleanE (bceE t1 l1))) (Ideal.ofBits .f32 0x40000000#32)

theorem spH_real (z : ℝ) : spH (z : EReal) = ((spR z : ℝ) : EReal) := by
  unfold spH spR
  rw [cmp_ne_self _ (Or.inr rfl), ValueIdx.select_zero, w_zero, ← EReal.coe_zero]
  simp only [← EReal.coe_sub, ← EReal.coe_neg, ← coe_max, log1p_exp_real, ← EReal.coe_add]
  congr 1
  rw [abs_eq_max_neg]
  simp only [sub_zero]

theorem lsH_real (x : ℝ) : lsH (x : EReal) = ((-(spR (-x)) : ℝ) : EReal) := by
  unfold lsH
  rw [← EReal.coe_neg, spH_real, ← EReal.coe_neg]

theorem bceE_real (t l : ℝ) : bceE (t : EReal) (l : EReal) = ((-(t * -(spR (-l)) + (1 - t) * -(spR l)) : ℝ) : EReal) := by
  unfold bceE
  rw [← EReal.coe_neg l, lsH_real, lsH_real, neg_neg, w_one]
  simp only [← EReal.coe_sub, ← EReal.coe_neg, ← EReal.coe_add, ← EReal.coe_mul]

/-- A real is neither infinity, and equals itself: the clean-up leaves it alone. -/
theorem cleanE_real (b : ℝ) : cleanE (b : EReal) = (b : EReal) := by
  have h1 : Ideal.cmp .oeq (b : EReal) (Ideal.ofBits .f32 0x7F800000#32) = 0#1 := by
    rw [w_top]; simp [Ideal.cmp]
  have h2 : Ideal.cmp .oeq (b : EReal) (Ideal.ofBits .f32 0xFF800000#32) = 0#1 := by
    rw [w_bot]; simp [Ideal.cmp]
  unfold cleanE
  rw [cmp_ne_self _ (Or.inr rfl), ValueIdx.select_zero, h1, ValueIdx.select_zero, h2, ValueIdx.select_zero]

theorem costHS_real (l0 l1 p0 p1 t0 t1 q0 q1 : ℝ) :
    costHS l0 l1 p0 p1 t0 t1 q0 q1 = ((costR l0 l1 p0 p1 t0 t1 q0 q1 : ℝ) : EReal) := by
  unfold costHS costR
  rw [bceE_real, bceE_real, cleanE_real, cleanE_real, w_five, w_two, w_zero, ← EReal.coe_zero,
    Ideal.div_coe (by norm_num : (2 : ℝ) ≠ 0)]
  simp only [← EReal.coe_sub, ← EReal.coe_neg, ← coe_max, ← EReal.coe_add, ← EReal.coe_mul]
  congr 1
  rw [abs_eq_max_neg, abs_eq_max_neg]
  have h0 := spR_neg_sub l0
  have h1 := spR_neg_sub l1
  linear_combination t0 * h0 + t1 * h1

/-- On real entries the two spellings are the same number. -/
theorem costK_eq_costHS (l0 l1 p0 p1 t0 t1 q0 q1 : ℝ) :
    costK l0 l1 p0 p1 t0 t1 q0 q1 = costHS l0 l1 p0 p1 t0 t1 q0 q1 := by
  rw [costK_real, costHS_real]

end Cert.Cost

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.KernelEntry.lean ====
/-
  One entry of the block the kernel body stores, from the entries of the four input blocks it reads.

  The body loads the two columns of the logits block and of the points block ([400, 1] each), the two rows of the
  labels block and of the target-points block ([1, 4800] each), repeats columns along the 4800 targets and rows
  down the 400 predictions, and combines them entry by entry. At row r and column j the stored value therefore
  depends on the eight numbers logits(r, 0), logits(r, 1), points(r, 0), points(r, 1), labels(0, j), labels(1, j),
  targets(0, j), targets(1, j) only, and is the scalar expression `Cost.costK` of them.
-/
import proofs.«138944_j43284680409696_2_alg».proof.Proof.Gen.KernelIdeal.Frame
import proofs.«138944_j43284680409696_2_alg».proof.Proof.CostLaw
import proofs.«138944_j43284680409696_2_alg».proof.Proof.LibKeepdims
import proofs.«138944_j43284680409696_2_alg».proof.Proof.LibBlockLayout

noncomputable section

namespace Cert.KernelIdeal.Entry

open Idealize.ShloMosaic Idealize.ShloMosaic.ValueIdx Cert.KernelIdeal Cert.KernelIdeal.Gen

theorem absf_at {s : Shape} (a : FVec Ideal s .f32) (i : s.Idx) : absf a i = max (a i) (-(a i)) := rfl
theorem exp_at {s : Shape} (a : FVec Ideal s .f32) (i : s.Idx) : exp a i = Ideal.exp (a i) := rfl
theorem log1p_at {s : Shape} (a : FVec Ideal s .f32) (i : s.Idx) : log1p a i = Ideal.log1p (a i) := rfl

/-- The stored value at (r, j) from the values the first part of the body hands on and the four later loads. -/
theorem pay1_at (v1 v3 : FVec Ideal S400x1 .f32) (v5 v7 : FVec Ideal S1x4800 .f32) (v27 v33 : FVec Ideal S400x1 .f32)
    (v36 : IVec S400x1 1) (v38 v41 : FVec Ideal S400x1 .f32) (v49 v51 : Vec Ideal S400x1 .f32)
    (v53 v55 : Vec Ideal S1x4800 .f32) (r : Fin 400) (j : Fin 4800) :
    k0_pay1 v1 v3 v5 v7 v27 v33 v36 v38 v41 v49 v51 v53 v55 (ix2 r j)
      = Ideal.ofBits .f32 0x40A00000#32
          * (max (v49 (ix2 r (0 : Fin 1)) - v53 (ix2 (0 : Fin 1) j)) (-(v49 (ix2 r (0 : Fin 1)) - v53 (ix2 (0 : Fin 1) j)))
            + max (v51 (ix2 r (0 : Fin 1)) - v55 (ix2 (0 : Fin 1) j)) (-(v51 (ix2 r (0 : Fin 1)) - v55 (ix2 (0 : Fin 1) j))))
        + Ideal.ofBits .f32 0xBF800000#32
          * ((v5 (ix2 (0 : Fin 1) j) * v1 (ix2 r (0 : Fin 1)) + v7 (ix2 (0 : Fin 1) j) * v3 (ix2 r (0 : Fin 1)))
            + (v27 (ix2 r (0 : Fin 1))
              + (Ideal.ofBits .f32 0x00000000#32
                - Scalar.select (v36 (ix2 r (0 : Fin 1))) (v38 (ix2 r (0 : Fin 1)))
                    (v33 (ix2 r (0 : Fin 1)) + Ideal.log1p (Ideal.exp (v41 (ix2 r (0 : Fin 1)))))))) := by
  unfold k0_pay1
  simp only [shapeCast_self, addf_apply, mulf_apply, subf_apply, absf_at, exp_at, log1p_at, select_apply, broadcast_apply,
    Cert.LibKeepdims.broadcastTo_a1_ab_apply, Cert.LibBlockLayout.rowBroadcast_at]
  rfl

/-! ## The loads: a column or a row of a block -/

theorem hz : (![0, 0] : Fin 2 → Nat) = fun _ => 0 := funext fun a => by fin_cases a <;> rfl

/-- Column 0 of a [400, 2] block, read at row r. -/
theorem ld_col0 (x : Vec Ideal S400x2 .f32) (r : Fin 400) :
    View.ld x r0_0 (ix2 r (0 : Fin 1)) = x (ix2 r (0 : Fin 2)) :=
  congrArg x (funext fun a => Fin.ext (by
    match a with
    | ⟨0, _⟩ => show 0 + 1 * r.val = r.val; omega
    | ⟨1, _⟩ => rfl))

/-- Column 1 of a [400, 2] block, read at row r. -/
theorem ld_col1 (x : Vec Ideal S400x2 .f32) (r : Fin 400) :
    View.ld x r0_1 (ix2 r (0 : Fin 1)) = x (ix2 r (1 : Fin 2)) :=
  congrArg x (funext fun a => Fin.ext (by
    match a with
    | ⟨0, _⟩ => show 0 + 1 * r.val = r.val; omega
    | ⟨1, _⟩ => rfl))

/-- Row 0 of a [2, 4800] block, read at column j. -/
theorem ld_row0 (x : Vec Ideal S2x4800 .f32) (j : Fin 4800) :
    View.ld x r0_2 (ix2 (0 : Fin 1) j) = x (ix2 (0 : Fin 2) j) :=
  congrArg x (funext fun a => Fin.ext (by
    match a with
    | ⟨0, _⟩ => rfl
    | ⟨1, _⟩ => show 0 + 1 * j.val = j.val; omega))

/-- Row 1 of a [2, 4800] block, read at column j. -/
theorem ld_row1 (x : Vec Ideal S2x4800 .f32) (j : Fin 4800) :
    View.ld x r0_3 (ix2 (0 : Fin 1) j) = x (ix2 (1 : Fin 2) j) :=
  congrArg x (funext fun a => Fin.ext (by
    match a with
    | ⟨0, _⟩ => rfl
    | ⟨1, _⟩ => show 0 + 1 * j.val = j.val; omega))

/-! ## The two log σ(-l) columns -/

/-- The first column's term: 0 - softplus(l), entry by entry. -/
theorem pay6_at (v0 : Vec Ideal S400x1 .f32) (i : S400x1.Idx) :
    k0_pay6 v0 i = Ideal.ofBits .f32 0x00000000#32 - Cert.Cost.spK (v0 i) := by
  unfold k0_pay6 k0_pay2
  simp only [shapeCast_self]
  rfl

/-- The second column's term, assembled from the pieces the first part of the body hands on. -/
theorem second_at (v2 : Vec Ideal S400x1 .f32) (i : S400x1.Idx) :
    Ideal.ofBits .f32 0x00000000#32
        - Scalar.select (k0_pay10 v2 i) (k0_pay11 v2 i) (k0_pay8 v2 i + Ideal.log1p (Ideal.exp (k0_pay12 v2 i)))
      = Ideal.ofBits .f32 0x00000000#32 - Cert.Cost.spK (v2 i) := by
  unfold k0_pay10 k0_pay11 k0_pay8 k0_pay12 k0_pay9 k0_pay7 k0_pay3
  simp only [shapeCast_self]
  rfl

/-! ## The stored block at an entry -/

/-- Entry (r, j) of what the body leaves in the output block is the kernel's scalar cost of the eight entries of the
    input blocks in row r and column j. -/
theorem out_at (x0 x1 : Vec Ideal S400x2 .f32) (x2 x3 : Vec Ideal S2x4800 .f32) (r : Fin 400) (j : Fin 4800) :
    out0_4 x0 x1 x2 x3 (ix2 r j)
      = Cert.Cost.costK (x0 (ix2 r (0 : Fin 2))) (x0 (ix2 r (1 : Fin 2))) (x1 (ix2 r (0 : Fin 2))) (x1 (ix2 r (1 : Fin 2)))
          (x2 (ix2 (0 : Fin 2) j)) (x2 (ix2 (1 : Fin 2) j)) (x3 (ix2 (0 : Fin 2) j)) (x3 (ix2 (1 : Fin 2) j)) := by
  unfold out0_4
  rw [View.canon_unit_zero hz, pay1_at, second_at, pay6_at]
  unfold k0_pay2 k0_pay3 k0_pay4 k0_pay5
  simp only [shapeCast_self]
  rw [ld_col0 x0 r, ld_col1 x0 r, ld_col0 x1 r, ld_col1 x1 r, ld_row0 x2 j, ld_row1 x2 j, ld_row0 x3 j, ld_row1 x3 j]
  rfl

end Cert.KernelIdeal.Entry

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.KernelValue.lean ====
/-
  The kernel program's result array as one function of the four argument arrays.

  The region runs the body at 30 grid points; point t reads rows 400·t … 400·t + 399 of the flattened logits and
  points arrays and the whole transposed labels and target-points arrays, and writes rows 400·t … 400·t + 399 of
  the [12000, 4800] cost matrix. An entry (n, j) of that matrix is therefore the scalar cost of the eight numbers
  logits(n, ·), points(n, ·), labels(·, j), targets(·, j), whichever point wrote it, and the 30 blocks cover the
  matrix. Before the region the host flattens [8, 1500, 2] to [12000, 2] and transposes [4800, 2] to [2, 4800];
  after it the host regroups the matrix as [8, 1500, 4800]. Read at (b, q, j) the result is the scalar cost of
  logits(b, q, ·), points(b, q, ·), labels(j, ·), targets(j, ·).
-/
import proofs.«138944_j43284680409696_2_alg».proof.Proof.KernelEntry
import proofs.«138944_j43284680409696_2_alg».proof.Proof.LibFlatten
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The cost matrix [12000, 4800] from the four arrays the region reads: flattened logits and points [12000, 2],
    transposed labels and target points [2, 4800]. -/
def G (X0 X1 : S12000x2.Idx → Elt Ideal .f32) (X2 X3 : S2x4800.Idx → Elt Ideal .f32) : S12000x4800.Idx → Elt Ideal .f32 :=
  fun i => Cert.Cost.costK (X0 (ix2 (i 0) (0 : Fin 2))) (X0 (ix2 (i 0) (1 : Fin 2))) (X1 (ix2 (i 0) (0 : Fin 2))) (X1 (ix2 (i 0) (1 : Fin 2)))
    (X2 (ix2 (0 : Fin 2) (i 1))) (X2 (ix2 (1 : Fin 2) (i 1))) (X3 (ix2 (0 : Fin 2) (i 1))) (X3 (ix2 (1 : Fin 2) (i 1)))

/-- The printed index maps, decided over the 30 grid points: the two row-blocked inputs move with the output's
    row block, the two resident inputs stay at block (0, 0). -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 29 :=
  (by decide +kernel : ∀ t : Fin grid0.N, _)

/-- Every row block of the output is some point's. -/
theorem idx_onto : ∀ q : Fin 30, ∃ t : Fin cfg0.N, win0_4.index t = ![q.val, 0] :=
  (by decide +kernel : ∀ q : Fin 30, ∃ t : Fin grid0.N, win0_4.index t = ![q.val, 0])

/-! ## The input blocks at a point, read off the arrays -/

theorem blk0_read (c : Dev nD) (t : Fin cfg0.N) (r : Fin 400) (k : Fin 2) (n : Fin 12000)
    (hn : n.val = win0_4.index t (0 : Fin 2) * 400 + r.val) :
    iblk m c 0 t (ix2 r k) = V m c main_v0 (ix2 n k) := by
  obtain ⟨e0, e0', -⟩ := idx_facts t
  show V m c main_v0 (((cfg0.win 0).blk t).view.emb (ix2 r k)) = V m c main_v0 (ix2 n k)
  refine congrArg _ (funext fun a => Fin.ext ?_)
  match a with
  | ⟨0, _⟩ => show win0_0.index t (0 : Fin 2) * 400 + 1 * r.val = n.val; omega
  | ⟨1, _⟩ => show win0_0.index t (1 : Fin 2) * 2 + 1 * k.val = k.val; omega

theorem blk1_read (c : Dev nD) (t : Fin cfg0.N) (r : Fin 400) (k : Fin 2) (n : Fin 12000)
    (hn : n.val = win0_4.index t (0 : Fin 2) * 400 + r.val) :
    iblk m c 1 t (ix2 r k) = V m c main_v1 (ix2 n k) := by
  obtain ⟨-, -, e1, e1', -⟩ := idx_facts t
  show V m c main_v1 (((cfg0.win 1).blk t).view.emb (ix2 r k)) = V m c main_v1 (ix2 n k)
  refine congrArg _ (funext fun a => Fin.ext ?_)
  match a with
  | ⟨0, _⟩ => show win0_1.index t (0 : Fin 2) * 400 + 1 * r.val = n.val; omega
  | ⟨1, _⟩ => show win0_1.index t (1 : Fin 2) * 2 + 1 * k.val = k.val; omega

theorem blk2_read (c : Dev nD) (t : Fin cfg0.N) (k : Fin 2) (j : Fin 4800) :
    iblk m c 2 t (ix2 k j) = V m c main_v2 (ix2 k j) := by
  obtain ⟨-, -, -, -, e2, e2', -⟩ := idx_facts t
  show V m c main_v2 (((cfg0.win 2).blk t).view.emb (ix2 k j)) = V m c main_v2 (ix2 k j)
  refine congrArg _ (funext fun a => Fin.ext ?_)
  match a with
  | ⟨0, _⟩ => show win0_2.index t (0 : Fin 2) * 2 + 1 * k.val = k.val; omega
  | ⟨1, _⟩ => show win0_2.index t (1 : Fin 2) * 4800 + 1 * j.val = j.val; omega

theorem blk3_read (c : Dev nD) (t : Fin cfg0.N) (k : Fin 2) (j : Fin 4800) :
    iblk m c 3 t (ix2 k j) = V m c main_v3 (ix2 k j) := by
  obtain ⟨-, -, -, -, -, -, e3, e3', -⟩ := idx_facts t
  show V m c main_v3 (((cfg0.win 3).blk t).view.emb (ix2 k j)) = V m c main_v3 (ix2 k j)
  refine congrArg _ (funext fun a => Fin.ext ?_)
  match a with
  | ⟨0, _⟩ => show win0_3.index t (0 : Fin 2) * 2 + 1 * k.val = k.val; omega
  | ⟨1, _⟩ => show win0_3.index t (1 : Fin 2) * 4800 + 1 * j.val = j.val; omega

/-- What the body leaves at (r, j) at point t is the cost matrix at row 400·t + r. -/
theorem out_blk (c : Dev nD) (t : Fin cfg0.N) (r : Fin 400) (j : Fin 4800) (n : Fin 12000)
    (hn : n.val = win0_4.index t (0 : Fin 2) * 400 + r.val) :
    out0_4 (iblk m c 0 t) (iblk m c 1 t) (iblk m c 2 t) (iblk m c 3 t) (ix2 r j)
      = G (V m c main_v0) (V m c main_v1) (V m c main_v2) (V m c main_v3) (ix2 n j) := by
  rw [Cert.KernelIdeal.Entry.out_at, blk0_read m c t r 0 n hn, blk0_read m c t r 1 n hn, blk1_read m c t r 0 n hn,
    blk1_read m c t r 1 n hn, blk2_read m c t 0 j, blk2_read m c t 1 j, blk3_read m c t 0 j, blk3_read m c t 1 j]
  rfl

/-! ## From blocks to the array -/

/-- What point t writes back is block t of the cost matrix. -/
theorem flushed_eq (c : Dev nD) (t : Fin cfg0.N) :
    (dats m 0 c).flushed 4 t
      = ((cfg0.win 4).blk t).view.read (Elt Ideal) (G (V m c main_v0) (V m c main_v1) (V m c main_v2) (V m c main_v3)) := by
  show (cfg0.win 4).cut (grid0.coords t) ((dats m 0 c).after 4 t) = _
  rw [after0_4]
  funext y
  have hy0 : (y 0).val < 400 := (y 0).isLt
  have hy1 : (y 1).val < 4800 := (y 1).isLt
  obtain ⟨-, -, -, -, -, -, -, -, e41, e40⟩ := idx_facts t
  have hn : win0_4.index t (0 : Fin 2) * 400 + (y 0).val < 12000 := by omega
  have hemb : ((cfg0.win 4).blk t).view.emb y
      = ix2 (⟨win0_4.index t (0 : Fin 2) * 400 + (y 0).val, hn⟩ : Fin 12000) (⟨(y 1).val, hy1⟩ : Fin 4800) := by
    funext a; apply Fin.ext
    match a with
    | ⟨0, _⟩ => show win0_4.index t (0 : Fin 2) * 400 + 1 * (y 0).val = win0_4.index t (0 : Fin 2) * 400 + (y 0).val; omega
    | ⟨1, _⟩ => show win0_4.index t (1 : Fin 2) * 4800 + 1 * (y 1).val = (y 1).val; omega
  have hy : y = ix2 (⟨(y 0).val, hy0⟩ : Fin 400) (⟨(y 1).val, hy1⟩ : Fin 4800) :=
    funext fun a => by match a with | ⟨0, _⟩ => rfl | ⟨1, _⟩ => rfl
  show out0_4 (iblk m c 0 t) (iblk m c 1 t) (iblk m c 2 t) (iblk m c 3 t) y
    = G (V m c main_v0) (V m c main_v1) (V m c main_v2) (V m c main_v3) (((cfg0.win 4).blk t).view.emb y)
  rw [hemb]
  refine (congrArg (out0_4 (iblk m c 0 t) (iblk m c 1 t) (iblk m c 2 t) (iblk m c 3 t)) hy).trans ?_
  exact out_blk m c t ⟨(y 0).val, hy0⟩ ⟨(y 1).val, hy1⟩ ⟨win0_4.index t (0 : Fin 2) * 400 + (y 0).val, hn⟩ rfl

/-- An index of the matrix is in point t's block iff each coordinate is in the block's range on its axis. -/
theorem mem_blk (t : Fin cfg0.N) (i : S12000x4800.Idx) :
    i ∈ ((cfg0.win 4).blk t).view.set ↔ ∀ a : Fin 2, win0_4.index t a * S400x4800.size a ≤ (i a).val
      ∧ (i a).val < win0_4.index t a * S400x4800.size a + S400x4800.size a := by
  show i ∈ ((View.whole main_v4).slice (win0_4.rect t)).set ↔ _
  rw [View.set_slice_whole, Rect.mem_set_unit]
  exact Iff.rfl

/-- Every entry of the matrix is in the block of the point its row block names. -/
theorem cover (i : S12000x4800.Idx) :
    ∃ t : Fin cfg0.N, (cfg0.win 4).flush t = true ∧ i ∈ ((cfg0.win 4).blk t).view.set := by
  have hi0 : (i 0).val < 12000 := (i 0).isLt
  have hi1 : (i 1).val < 4800 := (i 1).isLt
  obtain ⟨t, ht⟩ := idx_onto ⟨(i 0).val / 400, by omega⟩
  have q0 : win0_4.index t (0 : Fin 2) = (i 0).val / 400 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 400 ≤ (i 0).val ∧ (i 0).val < win0_4.index t (0 : Fin 2) * 400 + 400
    omega
  | ⟨1, _⟩ =>
    show win0_4.index t (1 : Fin 2) * 4800 ≤ (i 1).val ∧ (i 1).val < win0_4.index t (1 : Fin 2) * 4800 + 4800
    omega

/-- The cost matrix after the region. -/
theorem final (c : Dev nD) :
    (dats m 0 c).arrAt 4 cfg0.N = G (V m c main_v0) (V m c main_v1) (V m c main_v2) (V m c main_v3) :=
  (dats m 0 c).arrAt_eq_of_cover 4 _ (fun t _ => flushed_eq m c t) cover

end Cert.KernelIdeal.KValue

end
-- ==== Proof.KernelOut.lean ====
/-
  The kernel program's result as a function of its four argument arrays. The host flattens the logits and points from
  [8, 1500, 2] to [12000, 2] and transposes the labels and target points from [4800, 2] to [2, 4800]; the region fills the
  [12000, 4800] cost matrix from those four arrays; the host regroups it as [8, 1500, 4800]. Read at (b, q, j) the result
  is the scalar cost of logits(b, q, ·), points(b, q, ·), labels(j, ·), targets(j, ·), and the arguments end as they began.
-/
import proofs.«138944_j43284680409696_2_alg».proof.Proof.KernelValue
import proofs.«138944_j43284680409696_2_alg».proof.Proof.LibFlatten
import Idealize.ShloMosaic.Lib.Pipeline.Value
import Idealize.ShloMosaic.Lib.Pipeline.FrameSuffix
import Idealize.ShloMosaic.Lib.StableHlo.Run

set_option maxRecDepth 16384

noncomputable section

namespace Cert.KernelIdeal.KOut

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The four arrays the region reads, from the arguments -/

/-- The flattened logits are the first argument regrouped. -/
theorem V_v0 (c : Dev nD) : (V m c main_v0 : S12000x2.Idx → Elt Ideal .f32)
    = shapeCast S12000x2 (m ((c : Thread nD τ).loc main_arg0) : S8x1500x2.Idx → Elt Ideal .f32) shapeCasts_S8x1500x2_S12000x2 := by
  show StableHlo.after hostOps0 (fun b => m (c, b)) (Proc.devRef .tc main_v0) = _
  after_results
  rfl

/-- The flattened points are the second argument regrouped. -/
theorem V_v1 (c : Dev nD) : (V m c main_v1 : S12000x2.Idx → Elt Ideal .f32)
    = shapeCast S12000x2 (m ((c : Thread nD τ).loc main_arg1) : S8x1500x2.Idx → Elt Ideal .f32) shapeCasts_S8x1500x2_S12000x2 := by
  show StableHlo.after hostOps0 (fun b => m (c, b)) (Proc.devRef .tc main_v1) = _
  after_results
  rfl

/-- The transposed labels are the third argument transposed. -/
theorem V_v2 (c : Dev nD) : (V m c main_v2 : S2x4800.Idx → Elt Ideal .f32)
    = transpose S2x4800 [1, 0] (m ((c : Thread nD τ).loc main_arg2) : S4800x2.Idx → Elt Ideal .f32) transposes_S4800x2_S2x4800_1_0 := by
  show StableHlo.after hostOps0 (fun b => m (c, b)) (Proc.devRef .tc main_v2) = _
  after_results

/-- The transposed target points are the fourth argument transposed. -/
theorem V_v3 (c : Dev nD) : (V m c main_v3 : S2x4800.Idx → Elt Ideal .f32)
    = transpose S2x4800 [1, 0] (m ((c : Thread nD τ).loc main_arg3) : S4800x2.Idx → Elt Ideal .f32) transposes_S4800x2_S2x4800_1_0 := by
  show StableHlo.after hostOps0 (fun b => m (c, b)) (Proc.devRef .tc main_v3) = _
  after_results

/-! ## The result as a function of the arguments -/

/-- The program's result [8, 1500, 4800] from the four argument arrays. -/
def outK (a0 a1 : S8x1500x2.Idx → Elt Ideal .f32) (a2 a3 : S4800x2.Idx → Elt Ideal .f32) : S8x1500x4800.Idx → Elt Ideal .f32 :=
  shapeCast S8x1500x4800
    (KValue.G (shapeCast S12000x2 a0 shapeCasts_S8x1500x2_S12000x2) (shapeCast S12000x2 a1 shapeCasts_S8x1500x2_S12000x2)
      (transpose S2x4800 [1, 0] a2 transposes_S4800x2_S2x4800_1_0) (transpose S2x4800 [1, 0] a3 transposes_S4800x2_S2x4800_1_0))
    shapeCasts_S12000x4800_S8x1500x4800

/-- The cost matrix at (n, j) reads row n of its first two arrays and column j of its last two. -/
theorem G_at (X0 X1 : S12000x2.Idx → Elt Ideal .f32) (X2 X3 : S2x4800.Idx → Elt Ideal .f32) (n : Fin 12000) (j : Fin 4800) :
    KValue.G X0 X1 X2 X3 (ix2 n j)
      = Cert.Cost.costK (X0 (ix2 n (0 : Fin 2))) (X0 (ix2 n (1 : Fin 2))) (X1 (ix2 n (0 : Fin 2))) (X1 (ix2 n (1 : Fin 2)))
          (X2 (ix2 (0 : Fin 2) j)) (X2 (ix2 (1 : Fin 2) j)) (X3 (ix2 (0 : Fin 2) j)) (X3 (ix2 (1 : Fin 2) j)) := rfl

/-- A transposed [4800, 2] array at (c, j) is the array at (j, c). -/
theorem transpose_at {α : Type} (a : S4800x2.Idx → α) (h : S4800x2.Transposes [1, 0] S2x4800) (c : Fin 2) (j : Fin 4800) :
    transpose S2x4800 [1, 0] a h (ix2 c j) = a (ix2 j c) :=
  transpose_apply [1, 0] a h (ix2 c j) (ix2 j c) fun b => by
    match b with
    | ⟨0, _⟩ => rfl
    | ⟨1, _⟩ => rfl

/-- The result at (b, q, j) is the scalar cost of the eight argument entries it depends on. -/
theorem outK_at (a0 a1 : S8x1500x2.Idx → Elt Ideal .f32) (a2 a3 : S4800x2.Idx → Elt Ideal .f32) (b : Fin 8) (q : Fin 1500) (j : Fin 4800) :
    outK a0 a1 a2 a3 (ix3 b q j)
      = Cert.Cost.costK (a0 (ix3 b q (0 : Fin 2))) (a0 (ix3 b q (1 : Fin 2))) (a1 (ix3 b q (0 : Fin 2))) (a1 (ix3 b q (1 : Fin 2)))
          (a2 (ix2 j (0 : Fin 2))) (a2 (ix2 j (1 : Fin 2))) (a3 (ix2 j (0 : Fin 2))) (a3 (ix2 j (1 : Fin 2))) := by
  have hlt : b.val * 1500 + q.val < 12000 := by have := b.isLt; have := q.isLt; omega
  unfold outK
  refine (Cert.LibFlatten.shapeCast_nc_abc_apply _ _ b q j ⟨b.val * 1500 + q.val, hlt⟩ rfl).trans ?_
  refine (G_at _ _ _ _ ⟨b.val * 1500 + q.val, hlt⟩ j).trans ?_
  rw [Cert.LibFlatten.shapeCast_abc_nc_apply a0 _ b q (0 : Fin 2) ⟨b.val * 1500 + q.val, hlt⟩ rfl,
    Cert.LibFlatten.shapeCast_abc_nc_apply a0 _ b q (1 : Fin 2) ⟨b.val * 1500 + q.val, hlt⟩ rfl,
    Cert.LibFlatten.shapeCast_abc_nc_apply a1 _ b q (0 : Fin 2) ⟨b.val * 1500 + q.val, hlt⟩ rfl,
    Cert.LibFlatten.shapeCast_abc_nc_apply a1 _ b q (1 : Fin 2) ⟨b.val * 1500 + q.val, hlt⟩ rfl,
    transpose_at a2 _ (0 : Fin 2) j, transpose_at a2 _ (1 : Fin 2) j, transpose_at a3 _ (0 : Fin 2) j, transpose_at a3 _ (1 : Fin 2) j]

/-! ## The run -/

/-- What the host leaves in the result buffer after the region: the cost matrix regrouped. -/
theorem tail_v5 (c : Dev nD) :
    Pipeline.afterTail₀ cfgs (dats m) 0 (V0 m) [hostOps1] c main_v5
      = outK (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = KValue.G (V m c main_v0) (V m c main_v1) (V m c main_v2) (V m c main_v3) :=
    (Pipeline.withArrays_arr spec0 launch0.win.arr_inj c _ _ 4).trans (KValue.final m c)
  rw [e, V_v0, V_v1, V_v2, V_v3]
  rfl

/-- From any memory with zero counters the program terminates; the result buffer ends at the result function of the
    argument arrays as launched, and the four argument arrays end as launched. -/
theorem run : θ_run defs (onTc (τ := τ) (main (F := Ideal))) ⟨m, fun _ => 0, ρ⟩ (fun r => ∀ c : Dev nD,
      r.2.mem ((c.tc : Thread nD τ).loc main_v5)
        = outK (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_v5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KOut

end
-- ==== Proof.RefRead.lean ====
/-
  The reference's composed result read at one index. Every stage is entrywise, a repetition of an array along a new
  axis, or the sum over the last axis of length two, so the cost entry at row n and target j is a function of the eight
  entries l[n, ·], p[n, ·], t[j, ·], q[j, ·] alone: the scalar function costHS of them. Row n of the flattened arrays
  is row (b, q) of the [8, 1500, ·] arrays with n = 1500·b + q, which gives the same reading of the regrouped result.
-/
import proofs.«138944_j43284680409696_2_alg».proof.Proof.RefTerm
import proofs.«138944_j43284680409696_2_alg».proof.Proof.CostLaw
import proofs.«138944_j43284680409696_2_alg».proof.Proof.LibFlatten
import Idealize.ShloMosaic.Lib.IdealHost
import Idealize.ShloMosaic.Lib.Pipeline.Value
import Idealize.ShloMosaic.Lib.ValueIdx
import Idealize.ShloMosaic.PureOps.Ideal.Laws

namespace Cert.ReferenceIdeal.RefRead

open Idealize.ShloMosaic Idealize.ShloMosaic.ValueIdx Cert.ReferenceIdeal

variable [Cert.ReferenceIdeal.Facts]

/-! ## Entrywise stages -/

/-- softplus at an entry is the scalar softplus of the entry. -/
theorem softplusH_at (z : FVec Ideal S12000x2 .f32) (i : S12000x2.Idx) :
    Term.softplusH z i = Cert.Cost.spH (z i) := rfl

/-- log σ at an entry is the scalar log σ of the entry. -/
theorem logSigH_at (x : FVec Ideal S12000x2 .f32) (i : S12000x2.Idx) :
    Term.logSigH x i = Cert.Cost.lsH (x i) := rfl

/-- The clean-up at an entry is the scalar clean-up of the entry. -/
theorem cleanH_at (b : FVec Ideal S12000x4800x2 .f32) (i : S12000x4800x2.Idx) :
    Term.cleanH b i = Cert.Cost.cleanE (b i) := rfl

/-! ## Repetitions along an axis -/

/-- A per-row array repeated along the targets reads its row. -/
theorem alongM_at (v : FVec Ideal S12000x2 .f32) (n : Fin 12000) (j : Fin 4800) (c : Fin 2) :
    Term.alongM v (ix3 n j c) = v (ix2 n c) := by
  unfold Term.alongM
  refine (broadcastInDim_apply _ _ _ (ix3 n j c) (ix3 n (0 : Fin 1) c) ?_).trans ?_
  · intro a
    match a with
    | ⟨0, _⟩ => rfl
    | ⟨1, _⟩ => rfl
    | ⟨2, _⟩ => rfl
  · refine broadcastInDim_apply _ _ _ (ix3 n (0 : Fin 1) c) (ix2 n c) ?_
    intro a
    match a with
    | ⟨0, _⟩ => rfl
    | ⟨1, _⟩ => rfl

/-- A per-target array with a leading unit axis reads its row. -/
theorem lead1_at (a : FVec Ideal S4800x2 .f32) (j : Fin 4800) (c : Fin 2) :
    Term.lead1 a (ix3 (0 : Fin 1) j c) = a (ix2 j c) := by
  unfold Term.lead1
  refine broadcastInDim_apply _ _ _ (ix3 (0 : Fin 1) j c) (ix2 j c) ?_
  intro d
  match d with
  | ⟨0, _⟩ => rfl
  | ⟨1, _⟩ => rfl

/-- A [1, M, 2] array repeated along the rows reads its one leading slice. -/
theorem alongN_at (w : FVec Ideal S1x4800x2 .f32) (n : Fin 12000) (j : Fin 4800) (c : Fin 2) :
    Term.alongN w (ix3 n j c) = w (ix3 (0 : Fin 1) j c) := by
  unfold Term.alongN
  refine broadcastInDim_apply _ _ _ (ix3 n j c) (ix3 (0 : Fin 1) j c) ?_
  intro d
  match d with
  | ⟨0, _⟩ => rfl
  | ⟨1, _⟩ => rfl
  | ⟨2, _⟩ => rfl

/-- A per-target array repeated along the rows reads the target's row. -/
theorem targets_at (a : FVec Ideal S4800x2 .f32) (n : Fin 12000) (j : Fin 4800) (c : Fin 2) :
    Term.alongN (Term.lead1 a) (ix3 n j c) = a (ix2 j c) :=
  (alongN_at _ n j c).trans (lead1_at a j c)

/-! ## The cross-entropy term -/

theorem bceH_at (x0 : FVec Ideal S12000x2 .f32) (a2 : FVec Ideal S4800x2 .f32) (n : Fin 12000) (j : Fin 4800) (c : Fin 2) :
    Term.bceH x0 a2 (ix3 n j c) = Cert.Cost.bceE (a2 (ix2 j c)) (x0 (ix2 n c)) := by
  show -(Term.alongN (Term.lead1 a2) (ix3 n j c) * Term.alongM (Term.logSigH x0) (ix3 n j c)
        + Term.alongN (subf (broadcastInDim S1x4800x2 ![] Facts₀.bcast_S_S1x4800x2 (constant (F := Ideal) S_ .f32 0x3F800000#32)) (Term.lead1 a2)) (ix3 n j c)
          * Term.alongM (Term.logSigH (Host.negf x0)) (ix3 n j c)) = _
  rw [targets_at, alongM_at, alongM_at, alongN_at, logSigH_at, logSigH_at]
  show -(a2 (ix2 j c) * Cert.Cost.lsH (x0 (ix2 n c))
        + (Ideal.ofBits .f32 0x3F800000#32 - Term.lead1 a2 (ix3 (0 : Fin 1) j c)) * Cert.Cost.lsH (-(x0 (ix2 n c)))) = _
  rw [lead1_at]
  rfl

/-! ## The sum over the last axis -/

/-- The index over (n, j) with last coordinate k. -/
theorem lift_last (h : S12000x4800x2.Reduces [2] S12000x4800) (n : Fin 12000) (j : Fin 4800) (k : Fin 2) :
    h.lift (ix2 n j) k = ix3 n j k := by
  funext c
  apply Fin.ext
  match c with
  | ⟨0, _⟩ => rfl
  | ⟨1, _⟩ => rfl
  | ⟨2, _⟩ => rfl

/-- The host's sum over the last axis is the zero word plus the two entries. -/
theorem sumLast_at (v : FVec Ideal S12000x4800x2 .f32) (n : Fin 12000) (j : Fin 4800) :
    Term.sumLast v (ix2 n j)
      = Ideal.ofBits .f32 0x00000000#32 + (v (ix3 n j (0 : Fin 2)) + v (ix3 n j (1 : Fin 2))) := by
  have h : S12000x4800x2.Reduces [2] S12000x4800 := by decide
  unfold Term.sumLast
  rw [hostReduceAdd_apply]
  refine (Ideal.hostReduceAdd_single _ h v _ (ix2 n j)).trans ?_
  show Ideal.ofBits .f32 0x00000000#32 + ∑ k : Fin 2, v (h.lift (ix2 n j) k) = _
  rw [Fin.sum_univ_two, lift_last, lift_last]

/-! ## The cost entry -/

/-- The absolute difference of positions at an entry. -/
theorem absDiff_at (x1 : FVec Ideal S12000x2 .f32) (a3 : FVec Ideal S4800x2 .f32) (n : Fin 12000) (j : Fin 4800) (c : Fin 2) :
    Host.absf (subf (Term.alongM x1) (Term.alongN (Term.lead1 a3))) (ix3 n j c)
      = max (x1 (ix2 n c) - a3 (ix2 j c)) (-(x1 (ix2 n c) - a3 (ix2 j c))) := by
  show max (Term.alongM x1 (ix3 n j c) - Term.alongN (Term.lead1 a3) (ix3 n j c))
      (-(Term.alongM x1 (ix3 n j c) - Term.alongN (Term.lead1 a3) (ix3 n j c))) = _
  rw [alongM_at, targets_at]

theorem costH_at (x0 x1 : FVec Ideal S12000x2 .f32) (a2 a3 : FVec Ideal S4800x2 .f32) (n : Fin 12000) (j : Fin 4800) :
    Term.costH x0 x1 a2 a3 (ix2 n j)
      = Cert.Cost.costHS (x0 (ix2 n (0 : Fin 2))) (x0 (ix2 n (1 : Fin 2))) (x1 (ix2 n (0 : Fin 2))) (x1 (ix2 n (1 : Fin 2)))
          (a2 (ix2 j (0 : Fin 2))) (a2 (ix2 j (1 : Fin 2))) (a3 (ix2 j (0 : Fin 2))) (a3 (ix2 j (1 : Fin 2))) := by
  show Ideal.ofBits .f32 0x40A00000#32
        * Term.sumLast (Host.absf (subf (Term.alongM x1) (Term.alongN (Term.lead1 a3)))) (ix2 n j)
      + Ideal.ofBits .f32 0x40000000#32
        * Ideal.div (Term.sumLast (Term.cleanH (Term.bceH x0 a2)) (ix2 n j)) (Ideal.ofBits .f32 0x40000000#32) = _
  rw [sumLast_at, sumLast_at, absDiff_at, absDiff_at, cleanH_at, cleanH_at, bceH_at, bceH_at]
  rfl

/-! ## The regrouped result -/

theorem refOut_at (a0 a1 : FVec Ideal S8x1500x2 .f32) (a2 a3 : FVec Ideal S4800x2 .f32) (b : Fin 8) (q : Fin 1500) (j : Fin 4800) :
    Term.refOut a0 a1 a2 a3 (ix3 b q j)
      = Cert.Cost.costHS (a0 (ix3 b q (0 : Fin 2))) (a0 (ix3 b q (1 : Fin 2))) (a1 (ix3 b q (0 : Fin 2))) (a1 (ix3 b q (1 : Fin 2)))
          (a2 (ix2 j (0 : Fin 2))) (a2 (ix2 j (1 : Fin 2))) (a3 (ix2 j (0 : Fin 2))) (a3 (ix2 j (1 : Fin 2))) := by
  have hlt : b.val * 1500 + q.val < 12000 := by have := b.isLt; have := q.isLt; omega
  unfold Term.refOut
  refine (Cert.LibFlatten.shapeCast_nc_abc_apply _ _ b q j ⟨b.val * 1500 + q.val, hlt⟩ rfl).trans ?_
  rw [costH_at]
  rw [Cert.LibFlatten.shapeCast_abc_nc_apply a0 _ b q (0 : Fin 2) ⟨b.val * 1500 + q.val, hlt⟩ rfl,
    Cert.LibFlatten.shapeCast_abc_nc_apply a0 _ b q (1 : Fin 2) ⟨b.val * 1500 + q.val, hlt⟩ rfl,
    Cert.LibFlatten.shapeCast_abc_nc_apply a1 _ b q (0 : Fin 2) ⟨b.val * 1500 + q.val, hlt⟩ rfl,
    Cert.LibFlatten.shapeCast_abc_nc_apply a1 _ b q (1 : Fin 2) ⟨b.val * 1500 + q.val, hlt⟩ rfl]

end Cert.ReferenceIdeal.RefRead
-- ==== Proof.Finite.lean ====
/-
  The precondition computes, for each of the four float arrays x, the conjunction over every entry of
  |x| < +∞ (a reduction by "and" of the entrywise comparison, started at 1), and the conjunction of the
  four results. From the result being 1 it is derived that every entry of every array is a real number:
  an extended real whose absolute value max x (-x) lies strictly below ⊤ is neither ⊤ nor ⊥.
-/
import proofs.«138944_j43284680409696_2_alg».proof.Pre_finite_inputs
import proofs.«138944_j43284680409696_2_alg».proof.Proof.Gen.Pre_finite_inputs
import Idealize.ShloMosaic.Lib.ReduceAll
import Idealize.ShloMosaic.Lib.ValueIdx
import Idealize.ShloMosaic.PureOps.Ideal

namespace Cert.Finite

open Idealize.ShloMosaic

/-- The scalar shape has exactly one index. -/
instance subsingleton_scalar_idx : Subsingleton Cert.Pre_finite_inputs.S_.Idx :=
  ⟨fun a b => funext fun d => d.elim0⟩

/-- The pattern 0x7F800000 denotes +∞. -/
theorem inf_bits : Ideal.ofBits .f32 0x7F800000#32 = (⊤ : EReal) := by
  simp [Ideal.ofBits, Ideal.ieee]

/-- An extended real whose absolute value is strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A truth value read as a one-bit word is 1 exactly when it is true. -/
theorem ofBool_eq_one (b : Bool) : BitVec.ofBool b = 1#1 ↔ b = true := by cases b <;> decide

/-- The entrywise test |x| < +∞ being 1 says the entry is real. -/
theorem real_of_test (x : EReal)
    (h : Ideal.cmp .olt (max x (-x)) (Ideal.ofBits .f32 0x7F800000#32) = 1#1) : ∃ r : ℝ, x = (r : EReal) := by
  rw [inf_bits] at h
  have hlt : max x (-x) < ⊤ := of_decide_eq_true ((ofBool_eq_one _).1 h)
  exact real_of_abs_lt_top x hlt

/-- One array: if the reduction by "and" of the entrywise tests is 1, every entry is real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, a i = (r : EReal) := by
  intro i
  have hi := Host.reduce_andi_all _ _ hr hu ValueIdx.ix0 e i
  exact real_of_test (a i) hi

theorem real_of_pre [Cert.Pre_finite_inputs.Facts]
    (a0 a1 : FVec Ideal Cert.Pre_finite_inputs.S8x1500x2 .f32) (a2 a3 : FVec Ideal Cert.Pre_finite_inputs.S4800x2 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

end Cert.Finite
-- ==== Proof.Bridge.lean ====
/-
  The two programs' results are one array when every argument entry is a real number, and the certificate's
  algebraic claim from that.

  Entry (b, q, j) of the kernel program's result is the kernel's scalar spelling of the cost, and of the
  reference's result the reference's spelling, of the same eight argument entries logits(b, q, ·), points(b, q, ·),
  labels(j, ·), targets(j, ·). The precondition makes those eight entries reals, and on reals the two spellings are
  the same number (the cross-entropy identity log σ(l) - log σ(-l) = l, distributivity, and 2 · (s / 2) = s, all of
  which need finiteness).
-/
import proofs.«138944_j43284680409696_2_alg».proof.Defs
import proofs.«138944_j43284680409696_2_alg».proof.Proof.KernelOut
import proofs.«138944_j43284680409696_2_alg».proof.Proof.RefRead
import proofs.«138944_j43284680409696_2_alg».proof.Proof.RefRun
import proofs.«138944_j43284680409696_2_alg».proof.Proof.Finite
import proofs.«138944_j43284680409696_2_alg».proof.Proof.Gen.KernelIdeal
import proofs.«138944_j43284680409696_2_alg».proof.Proof.Gen.ReferenceIdeal
import proofs.«138944_j43284680409696_2_alg».proof.Proof.Gen.Pre_finite_inputs

noncomputable section

namespace Cert.Bridge

open Idealize.ShloMosaic Idealize.ShloMosaic.ValueIdx Idealize.SL.Sem

/-- On arrays of reals the reference's result is the kernel program's result. -/
theorem result_eq (a0 a1 : FVec Ideal Cert.KernelIdeal.S8x1500x2 .f32) (a2 a3 : FVec Ideal Cert.KernelIdeal.S4800x2 .f32)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    Cert.ReferenceIdeal.Term.refOut a0 a1 a2 a3 = Cert.KernelIdeal.KOut.outK a0 a1 a2 a3 := by
  funext i
  obtain ⟨b, q, j, rfl⟩ : ∃ (b : Fin 8) (q : Fin 1500) (j : Fin 4800), i = ix3 b q j := ⟨i 0, i 1, i 2, eq_ix3 i⟩
  rw [Cert.ReferenceIdeal.RefRead.refOut_at, Cert.KernelIdeal.KOut.outK_at]
  obtain ⟨l0, e0⟩ := h0 (ix3 b q (0 : Fin 2))
  obtain ⟨l1, e1⟩ := h0 (ix3 b q (1 : Fin 2))
  obtain ⟨p0, e2⟩ := h1 (ix3 b q (0 : Fin 2))
  obtain ⟨p1, e3⟩ := h1 (ix3 b q (1 : Fin 2))
  obtain ⟨t0, e4⟩ := h2 (ix2 j (0 : Fin 2))
  obtain ⟨t1, e5⟩ := h2 (ix2 j (1 : Fin 2))
  obtain ⟨q0, e6⟩ := h3 (ix2 j (0 : Fin 2))
  obtain ⟨q1, e7⟩ := h3 (ix2 j (1 : Fin 2))
  rw [e0, e1, e2, e3, e4, e5, e6, e7]
  exact (Cert.Cost.costK_eq_costHS l0 l1 p0 p1 t0 t1 q0 q1).symm

/-- Both idealized programs, run from memories that agree on the arguments, end with the same result array. -/
theorem algebraic : Cert.algebraic_KernelIdeal_ReferenceIdeal := by
  intro m ρ m' ρ' hpre hagree
  refine ⟨fun c => Cert.KernelIdeal.KOut.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KOut.run m ρ, ?_⟩
  refine (θ_run Cert.ReferenceIdeal.defs _ _).mono (fun _ h c => ⟨(h c).1.trans ?_, (h c).2⟩)
    (Cert.ReferenceIdeal.RefRun.run (F := Ideal) m' ρ')
  obtain ⟨r0, r1, r2, r3⟩ := Cert.Finite.real_of_pre _ _ _ _ (hpre c)
  rw [(hagree c).1, (hagree c).2.1, (hagree c).2.2.1, (hagree c).2.2.2]
  exact result_eq _ _ _ _ r0 r1 r2 r3

end Cert.Bridge

end
-- ==== Proof.lean ====
/-
  The certificate of the cost-matrix kernel against its reference: the three frames, the (empty) idealization ledger,
  and the algebraic claim.

  Each entry of the [8, 1500, 4800] result is 5 · (|p0 - q0| + |p1 - q1|) - (t0·l0 + t1·l1) + sp l0 + sp l1 of one
  prediction's logits l and position p and one target's labels t and position q, with sp the softplus
  max(z, 0) + log(1 + exp(-|z|)). The kernel computes log σ(-l) = -sp(l) once per prediction and uses the identity
  log σ(l) - log σ(-l) = l to fold the two cross-entropy branches; the reference computes both branches, cleans up
  non-numbers and infinities, averages over the two classes and scales by 2. On finite inputs the two agree
  (Proof/CostLaw.lean for the scalar law, Proof/KernelOut.lean and Proof/RefRead.lean for each program's result
  at an index, Proof/Bridge.lean for the claim). The kernel's frames are the generated ones; the reference's frame
  is its run with the result dropped.
-/
import proofs.«138944_j43284680409696_2_alg».proof.Defs
import proofs.«138944_j43284680409696_2_alg».proof.Proof.Gen.Kernel
import proofs.«138944_j43284680409696_2_alg».proof.Proof.Gen.Kernel.Skeleton
import proofs.«138944_j43284680409696_2_alg».proof.Proof.Gen.Kernel.Launch
import proofs.«138944_j43284680409696_2_alg».proof.Proof.Gen.Kernel.Points
import proofs.«138944_j43284680409696_2_alg».proof.Proof.Gen.Kernel.Frame
import proofs.«138944_j43284680409696_2_alg».proof.Proof.Gen.KernelIdeal
import proofs.«138944_j43284680409696_2_alg».proof.Proof.Gen.KernelIdeal.Skeleton
import proofs.«138944_j43284680409696_2_alg».proof.Proof.Gen.KernelIdeal.Launch
import proofs.«138944_j43284680409696_2_alg».proof.Proof.Gen.KernelIdeal.Points
import proofs.«138944_j43284680409696_2_alg».proof.Proof.Gen.KernelIdeal.Frame
import proofs.«138944_j43284680409696_2_alg».proof.Proof.Gen.ReferenceIdeal
import proofs.«138944_j43284680409696_2_alg».proof.Proof.Gen.Pre_finite_inputs
import proofs.«138944_j43284680409696_2_alg».proof.Proof.RefRun
import proofs.«138944_j43284680409696_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run (F := Ideal) m ρ),
  trivial,
  Cert.Bridge.algebraic⟩

end Cert.Proof

end
